-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v31_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S1024x256 : Shape := ⟨2, ![1024, 256]⟩
abbrev S2047x4 : Shape := ⟨2, ![2047, 4]⟩
abbrev S8x1x1024x1024 : Shape := ⟨4, ![8, 1, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S2047x4 : S_.BroadcastsInDim S2047x4 (![] : Fin 0 → Fin S2047x4.rank)
  reducesTo_S2047x4_S_d0_1 : S2047x4.ReducesTo [0, 1] S_

variable [Facts]

def fn_part1 {F : FTy → Type} [FloatOps F] (main_arg4 : FVec F S1024x256 .f32) (main_arg5 : FVec F S2047x4 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S2047x4 .f32 := Host.absf main_arg5
  let main_cst_8 : FVec F S_ .f32 := constant S_ .f32 0x7F800000#32
  let main_v25 : FVec F S2047x4 .f32 := broadcastInDim S2047x4 ![] bcast_S_S2047x4 main_cst_8
  let main_v26 : IVec S2047x4 1 := cmpf .olt main_v24 main_v25
  let main_c_9 : IVec S_ 1 := constantI S_ 1 1#1
  let main_v27 : IVec S_ 1 := (fun x v => Host.reduce IntOp.andi x v reducesTo_S2047x4_S_d0_1 h_S_) main_v26 main_c_9
  let main_v28 : IVec S_ 1 := andi main_v23 main_v27
  main_v28

def fn {F : FTy → Type} [FloatOps F] (main_arg0 : FVec F S8x16x1024x64 .f32) (main_arg1 : FVec F S8x16x1024x64 .f32) (main_arg2 : FVec F S8x16x1024x64 .f32) (main_arg3 : FVec F S1024x256 .f32) (main_arg4 : FVec F S1024x256 .f32) (main_arg5 : FVec F S2047x4 .f32) (main_arg6 : IVec S8x1x1024x1024 1) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_v13 main_v16
-- ==== Kernel.lean ====
abbrev S8x16x1024x64 : Shape := ⟨4, ![8, 16, 1024, 64]⟩
abbrev S1024x256 : Shape := ⟨2, ![1024, 256]⟩
abbrev S2047x4 : Shape := ⟨2, ![2047, 4]⟩
abbrev S8x1x1024x1024 : Shape := ⟨4, ![8, 1, 1024, 1024]⟩
abbrev S4x1024x64 : Shape := ⟨3, ![4, 1024, 64]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1024x1024x1 : Shape := ⟨3, ![1024, 1024, 1]⟩
abbrev S1024x1024x4 : Shape := ⟨3, ![1024, 1024, 4]⟩
abbrev S4x1024x1024 : Shape := ⟨3, ![4, 1024, 1024]⟩
abbrev S8x12x1024x64 : Shape := ⟨4, ![8, 12, 1024, 64]⟩
abbrev S8x12x1024x1024 : Shape := ⟨4, ![8, 12, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S8x4x1024x64 : Shape := ⟨4, ![8, 4, 1024, 64]⟩
abbrev S8x4x1024x1024 : Shape := ⟨4, ![8, 4, 1024, 1024]⟩
abbrev S1x1024x64 : Shape := ⟨3, ![1, 1024, 64]⟩
abbrev S1x1024x1024 : Shape := ⟨3, ![1, 1024, 1024]⟩

abbrev nBuf : Space → Nat
  | .hbm => 49
  | .vmem => 30
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1024x256, .f32⟩
  | .hbm, ⟨4, _⟩ => ⟨S1024x256, .f32⟩
  | .hbm, ⟨5, _⟩ => ⟨S2047x4, .f32⟩
  | .hbm, ⟨6, _⟩ => ⟨S8x1x1024x1024, .i1⟩
  | .hbm, ⟨7, _⟩ => ⟨S4x1024x64, .f32⟩
  | .hbm, ⟨8, _⟩ => ⟨S4x1024x64, .f32⟩
  | .hbm, ⟨9, _⟩ => ⟨S1024, .i32⟩
  | .hbm, ⟨10, _⟩ => ⟨S1x1024, .i32⟩
  | .hbm, ⟨11, _⟩ => ⟨S1024x1, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i1⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i32⟩
  | .hbm, ⟨28, _⟩ => ⟨S1024x1024x1, .i32⟩
  | .hbm, ⟨29, _⟩ => ⟨S1024x1024x4, .f32⟩
  | .hbm, ⟨30, _⟩ => ⟨S_, .f32⟩
  | .hbm, ⟨31, _⟩ => ⟨S1024x1024x4, .f32⟩
  | .hbm, ⟨32, _⟩ => ⟨S1024x1024x4, .f32⟩
  | .hbm, ⟨33, _⟩ => ⟨S1024x1024x4, .f32⟩
  | .hbm, ⟨34, _⟩ => ⟨S1024x1024x4, .f32⟩
  | .hbm, ⟨35, _⟩ => ⟨S_, .f32⟩
  | .hbm, ⟨36, _⟩ => ⟨S1024x1024x4, .f32⟩
  | .hbm, ⟨37, _⟩ => ⟨S1024x1024x4, .f32⟩
  | .hbm, ⟨38, _⟩ => ⟨S_, .f32⟩
  | .hbm, ⟨39, _⟩ => ⟨S1024x1024x4, .f32⟩
  | .hbm, ⟨40, _⟩ => ⟨S1024x1024x4, .f32⟩
  | .hbm, ⟨41, _⟩ => ⟨S4x1024x1024, .f32⟩
  | .hbm, ⟨42, _⟩ => ⟨S8x1x1024x1024, .i32⟩
  | .hbm, ⟨43, _⟩ => ⟨S8x12x1024x64, .f32⟩
  | .hbm, ⟨44, _⟩ => ⟨S8x12x1024x1024, .f32⟩
  | .hbm, ⟨45, _⟩ => ⟨S8x1x1024x1024, .i32⟩
  | .hbm, ⟨46, _⟩ => ⟨S8x4x1024x64, .f32⟩
  | .hbm, ⟨47, _⟩ => ⟨S8x4x1024x1024, .f32⟩
  | .hbm, ⟨48, _⟩ => ⟨S8x16x1024x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024x64, .f32⟩
  | .local _ .vmem, ⟨13, _⟩ => ⟨S1x1x1024x64, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x64, .f32⟩
  | .local _ .vmem, ⟨17, _⟩ => ⟨S1x1x1024x64, .f32⟩
  | .local _ .vmem, ⟨18, _⟩ => ⟨S1x1024x64, .f32⟩
  | .local _ .vmem, ⟨19, _⟩ => ⟨S1x1024x64, .f32⟩
  | .local _ .vmem, ⟨20, _⟩ => ⟨S1x1024x64, .f32⟩
  | .local _ .vmem, ⟨21, _⟩ => ⟨S1x1024x64, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1x1024x1024, .i32⟩
  | .local _ .vmem, ⟨25, _⟩ => ⟨S1x1x1024x1024, .i32⟩
  | .local _ .vmem, ⟨26, _⟩ => ⟨S1x1x1024x64, .f32⟩
  | .local _ .vmem, ⟨27, _⟩ => ⟨S1x1x1024x64, .f32⟩
  | .local _ .vmem, ⟨28, _⟩ => ⟨S1x1x1024x1024, .f32⟩
  | .local _ .vmem, ⟨29, _⟩ => ⟨S1x1x1024x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![arg1.toNat, v0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![arg1.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![arg1.toNat, v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x1024x1024 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  shapeCasts_S1024x256_S4x1024x64 : S1024x256.ShapeCasts S4x1024x64
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S_S1024x1024x4 : S_.BroadcastsInDim S1024x1024x4 (![] : Fin 0 → Fin S1024x1024x4.rank)
  transposes_S1024x1024x4_S4x1024x1024_2_0_1 : S1024x1024x4.Transposes [2, 0, 1] S4x1024x1024
  natLt_1_32 : 1 < 32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1x1024x1024 : S1024x1024.ShapeCasts S1x1x1024x1024
  shapeCasts_S1024x64_S1x1x1024x64 : S1024x64.ShapeCasts S1x1x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  concatenates_S8x12x1024x64_S8x4x1024x64_S8x16x1024x64_d1 : Shape.Concatenates [S8x12x1024x64, S8x4x1024x64] S8x16x1024x64 1
  gather_S2047x4_S1024x1024x1_S1024x1024x4_2_0_n_n_0_2_14_wf : GatherDims.WF S2047x4 S1024x1024x1 S1024x1024x4 [2] [0] [] [0] [] 2 ![1, 4]
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S8x1x1024x1024.size a
  hwx0_3 : ∀ i : grid0.Coords, EltTy.bits .i32 = 32 ∨ (Rect.block (s := S8x1x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x12x1024x64.size a
  hwx0_4 : ∀ i : grid0.Coords, EltTy.bits .f32 = 32 ∨ (Rect.block (s := S8x12x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x12x1024x1024.size a
  hwx0_5 : ∀ i : grid0.Coords, EltTy.bits .f32 = 32 ∨ (Rect.block (s := S8x12x1024x1024) S1x1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S8x16x1024x64.size a
  hwx1_0 : ∀ i : grid1.Coords, EltTy.bits .f32 = 32 ∨ (Rect.block (s := S8x16x1024x64) S1x1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S8x16x1024x64.size a
  hwx1_1 : ∀ i : grid1.Coords, EltTy.bits .f32 = 32 ∨ (Rect.block (s := S8x16x1024x64) S1x1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S8x16x1024x64.size a
  hwx1_2 : ∀ i : grid1.Coords, EltTy.bits .f32 = 32 ∨ (Rect.block (s := S8x16x1024x64) S1x1x1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x1024x64.size a
  hwx1_3 : ∀ i : grid1.Coords, EltTy.bits .f32 = 32 ∨ (Rect.block (s := S4x1024x64) S1x1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x64.size a ≤ S4x1024x64.size a
  hwx1_4 : ∀ i : grid1.Coords, EltTy.bits .f32 = 32 ∨ (Rect.block (s := S4x1024x64) S1x1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x1024x1024.size a
  hwx1_5 : ∀ i : grid1.Coords, EltTy.bits .f32 = 32 ∨ (Rect.block (s := S4x1024x1024) S1x1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1024x1024.size a ≤ S8x1x1024x1024.size a
  hwx1_6 : ∀ i : grid1.Coords, EltTy.bits .i32 = 32 ∨ (Rect.block (s := S8x1x1024x1024) S1x1x1024x1024.size (cc1_transform_6 i) (hinb1_6 i)).WholeWords (EltTy.packing .i32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1024x64.size a ≤ S8x4x1024x64.size a
  hwx1_7 : ∀ i : grid1.Coords, EltTy.bits .f32 = 32 ∨ (Rect.block (s := S8x4x1024x64) S1x1x1024x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024x1024.size a ≤ S8x4x1024x1024.size a
  hwx1_8 : ∀ i : grid1.Coords, EltTy.bits .f32 = 32 ∨ (Rect.block (s := S8x4x1024x1024) S1x1x1024x1024.size (cc1_transform_8 i) (hinb1_8 i)).WholeWords (EltTy.packing .f32)

variable [Facts₀]

def gather_S2047x4_S1024x1024x1_S1024x1024x4_2_0_n_n_0_2_14 : GatherDims S2047x4 S1024x1024x1 S1024x1024x4 where
  offsetDims := [2]
  collapsedSliceDims := [0]
  operandBatchingDims := []
  startIndicesBatchingDims := []
  startIndexMap := [0]
  indexVectorDim := 2
  sliceSizes := ![1, 4]
  wf := gather_S2047x4_S1024x1024x1_S1024x1024x4_2_0_n_n_0_2_14_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x1024x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x1x1024x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_0) S1x1x1024x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v31_1) S1x1x1024x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x16x1024x64 : Shape := ⟨4, ![8, 16, 1024, 64]⟩
abbrev S1024x256 : Shape := ⟨2, ![1024, 256]⟩
abbrev S2047x4 : Shape := ⟨2, ![2047, 4]⟩
abbrev S8x1x1024x1024 : Shape := ⟨4, ![8, 1, 1024, 1024]⟩
abbrev S_ : Shape := ⟨0, ![]⟩
abbrev S8x12x1024x64 : Shape := ⟨4, ![8, 12, 1024, 64]⟩
abbrev S8x4x1024x64 : Shape := ⟨4, ![8, 4, 1024, 64]⟩
abbrev S1x4x1024x64 : Shape := ⟨4, ![1, 4, 1024, 64]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S8x4x1024x1024 : Shape := ⟨4, ![8, 4, 1024, 1024]⟩
abbrev S1024x1024x1 : Shape := ⟨3, ![1024, 1024, 1]⟩
abbrev S1024x1024x4 : Shape := ⟨3, ![1024, 1024, 4]⟩
abbrev S4x1024x1024 : Shape := ⟨3, ![4, 1024, 1024]⟩
abbrev S1x4x1024x1024 : Shape := ⟨4, ![1, 4, 1024, 1024]⟩
abbrev S8x4x1024 : Shape := ⟨3, ![8, 4, 1024]⟩
abbrev S8x4x1024x1 : Shape := ⟨4, ![8, 4, 1024, 1]⟩

abbrev nBuf : Space → Nat
  | .hbm => 106
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S1024x256, .f32⟩
  | .hbm, ⟨4, _⟩ => ⟨S1024x256, .f32⟩
  | .hbm, ⟨5, _⟩ => ⟨S2047x4, .f32⟩
  | .hbm, ⟨6, _⟩ => ⟨S8x1x1024x1024, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x12x1024x64, .f32⟩
  | .hbm, ⟨12, _⟩ => ⟨S8x12x1024x64, .f32⟩
  | .hbm, ⟨13, _⟩ => ⟨S8x12x1024x64, .f32⟩
  | .hbm, ⟨14, _⟩ => ⟨S8x4x1024x64, .f32⟩
  | .hbm, ⟨15, _⟩ => ⟨S8x4x1024x64, .f32⟩
  | .hbm, ⟨16, _⟩ => ⟨S8x4x1024x64, .f32⟩
  | .hbm, ⟨17, _⟩ => ⟨S1x4x1024x64, .f32⟩
  | .hbm, ⟨18, _⟩ => ⟨S8x4x1024x64, .f32⟩
  | .hbm, ⟨19, _⟩ => ⟨S8x4x1024x64, .f32⟩
  | .hbm, ⟨20, _⟩ => ⟨S1x4x1024x64, .f32⟩
  | .hbm, ⟨21, _⟩ => ⟨S8x4x1024x64, .f32⟩
  | .hbm, ⟨22, _⟩ => ⟨S8x4x1024x64, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S_, .f32⟩
  | .hbm, ⟨28, _⟩ => ⟨S8x12x1024x1024, .i1⟩
  | .hbm, ⟨29, _⟩ => ⟨S8x12x1024x1024, .f32⟩
  | .hbm, ⟨30, _⟩ => ⟨S8x12x1024x1024, .f32⟩
  | .hbm, ⟨31, _⟩ => ⟨S_, .f32⟩
  | .hbm, ⟨32, _⟩ => ⟨S8x12x1024, .f32⟩
  | .hbm, ⟨33, _⟩ => ⟨S_, .f32⟩
  | .hbm, ⟨34, _⟩ => ⟨S8x12x1024, .f32⟩
  | .hbm, ⟨35, _⟩ => ⟨S8x12x1024, .f32⟩
  | .hbm, ⟨36, _⟩ => ⟨S8x12x1024x1, .f32⟩
  | .hbm, ⟨37, _⟩ => ⟨S8x12x1024x1024, .f32⟩
  | .hbm, ⟨38, _⟩ => ⟨S8x12x1024x1024, .f32⟩
  | .hbm, ⟨39, _⟩ => ⟨S8x12x1024x1024, .f32⟩
  | .hbm, ⟨40, _⟩ => ⟨S_, .f32⟩
  | .hbm, ⟨41, _⟩ => ⟨S8x12x1024, .f32⟩
  | .hbm, ⟨42, _⟩ => ⟨S8x12x1024x1, .f32⟩
  | .hbm, ⟨43, _⟩ => ⟨S8x12x1024x1024, .f32⟩
  | .hbm, ⟨44, _⟩ => ⟨S8x12x1024x1024, .f32⟩
  | .hbm, ⟨45, _⟩ => ⟨S8x12x1024x64, .f32⟩
  | .hbm, ⟨46, _⟩ => ⟨S1024, .i32⟩
  | .hbm, ⟨47, _⟩ => ⟨S1x1024, .i32⟩
  | .hbm, ⟨48, _⟩ => ⟨S1024x1, .i32⟩
  | .hbm, ⟨49, _⟩ => ⟨S1024x1024, .i32⟩
  | .hbm, ⟨50, _⟩ => ⟨S1024x1024, .i32⟩
  | .hbm, ⟨51, _⟩ => ⟨S1024x1024, .i32⟩
  | .hbm, ⟨52, _⟩ => ⟨S_, .i32⟩
  | .hbm, ⟨53, _⟩ => ⟨S1024x1024, .i32⟩
  | .hbm, ⟨54, _⟩ => ⟨S1024x1024, .i32⟩
  | .hbm, ⟨55, _⟩ => ⟨S_, .i32⟩
  | .hbm, ⟨56, _⟩ => ⟨S1024x1024, .i32⟩
  | .hbm, ⟨57, _⟩ => ⟨S1024x1024, .i32⟩
  | .hbm, ⟨58, _⟩ => ⟨S8x4x1024x1024, .f32⟩
  | .hbm, ⟨59, _⟩ => ⟨S8x4x1024x1024, .f32⟩
  | .hbm, ⟨60, _⟩ => ⟨S8x4x1024x1024, .f32⟩
  | .hbm, ⟨61, _⟩ => ⟨S_, .i32⟩
  | .hbm, ⟨62, _⟩ => ⟨S1024x1024, .i32⟩
  | .hbm, ⟨63, _⟩ => ⟨S1024x1024, .i1⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S1024x1024, .i32⟩
  | .hbm, ⟨68, _⟩ => ⟨S1024x1024x1, .i32⟩
  | .hbm, ⟨69, _⟩ => ⟨S1024x1024x4, .f32⟩
  | .hbm, ⟨70, _⟩ => ⟨S_, .f32⟩
  | .hbm, ⟨71, _⟩ => ⟨S1024x1024x4, .f32⟩
  | .hbm, ⟨72, _⟩ => ⟨S1024x1024x4, .f32⟩
  | .hbm, ⟨73, _⟩ => ⟨S1024x1024x4, .f32⟩
  | .hbm, ⟨74, _⟩ => ⟨S1024x1024x4, .f32⟩
  | .hbm, ⟨75, _⟩ => ⟨S_, .f32⟩
  | .hbm, ⟨76, _⟩ => ⟨S1024x1024x4, .f32⟩
  | .hbm, ⟨77, _⟩ => ⟨S1024x1024x4, .f32⟩
  | .hbm, ⟨78, _⟩ => ⟨S_, .f32⟩
  | .hbm, ⟨79, _⟩ => ⟨S1024x1024x4, .f32⟩
  | .hbm, ⟨80, _⟩ => ⟨S1024x1024x4, .f32⟩
  | .hbm, ⟨81, _⟩ => ⟨S4x1024x1024, .f32⟩
  | .hbm, ⟨82, _⟩ => ⟨S1x4x1024x1024, .f32⟩
  | .hbm, ⟨83, _⟩ => ⟨S8x4x1024x1024, .f32⟩
  | .hbm, ⟨84, _⟩ => ⟨S8x4x1024x1024, .f32⟩
  | .hbm, ⟨85, _⟩ => ⟨S_, .f32⟩
  | .hbm, ⟨86, _⟩ => ⟨S_, .f32⟩
  | .hbm, ⟨87, _⟩ => ⟨S8x4x1024x1024, .i1⟩
  | .hbm, ⟨88, _⟩ => ⟨S8x4x1024x1024, .f32⟩
  | .hbm, ⟨89, _⟩ => ⟨S8x4x1024x1024, .f32⟩
  | .hbm, ⟨90, _⟩ => ⟨S_, .f32⟩
  | .hbm, ⟨91, _⟩ => ⟨S8x4x1024, .f32⟩
  | .hbm, ⟨92, _⟩ => ⟨S_, .f32⟩
  | .hbm, ⟨93, _⟩ => ⟨S8x4x1024, .f32⟩
  | .hbm, ⟨94, _⟩ => ⟨S8x4x1024, .f32⟩
  | .hbm, ⟨95, _⟩ => ⟨S8x4x1024x1, .f32⟩
  | .hbm, ⟨96, _⟩ => ⟨S8x4x1024x1024, .f32⟩
  | .hbm, ⟨97, _⟩ => ⟨S8x4x1024x1024, .f32⟩
  | .hbm, ⟨98, _⟩ => ⟨S8x4x1024x1024, .f32⟩
  | .hbm, ⟨99, _⟩ => ⟨S_, .f32⟩
  | .hbm, ⟨100, _⟩ => ⟨S8x4x1024, .f32⟩
  | .hbm, ⟨101, _⟩ => ⟨S8x4x1024x1, .f32⟩
  | .hbm, ⟨102, _⟩ => ⟨S8x4x1024x1024, .f32⟩
  | .hbm, ⟨103, _⟩ => ⟨S8x4x1024x1024, .f32⟩
  | .hbm, ⟨104, _⟩ => ⟨S8x4x1024x64, .f32⟩
  | .hbm, ⟨105, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S8x16x1024x64_S8x12x1024x64_0_0_0_0 : S8x16x1024x64.Slices ![0, 0, 0, 0] S8x12x1024x64
  slices_S8x16x1024x64_S8x4x1024x64_0_12_0_0 : S8x16x1024x64.Slices ![0, 12, 0, 0] S8x4x1024x64
  shapeCasts_S1024x256_S1x4x1024x64 : S1024x256.ShapeCasts S1x4x1024x64
  bcast_S1x4x1024x64_S8x4x1024x64_0_1_2_3 : S1x4x1024x64.BroadcastsInDim S8x4x1024x64 (![0, 1, 2, 3] : Fin 4 → Fin S8x4x1024x64.rank)
  bcast_S_S8x12x1024x1024 : S_.BroadcastsInDim S8x12x1024x1024 (![] : Fin 0 → Fin S8x12x1024x1024.rank)
  bcast_S8x1x1024x1024_S8x12x1024x1024_0_1_2_3 : S8x1x1024x1024.BroadcastsInDim S8x12x1024x1024 (![0, 1, 2, 3] : Fin 4 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bcast_S_S8x4x1024x1024 : S_.BroadcastsInDim S8x4x1024x1024 (![] : Fin 0 → Fin S8x4x1024x1024.rank)
  bcast_S1024x1024_S1024x1024x1_0_1 : S1024x1024.BroadcastsInDim S1024x1024x1 (![0, 1] : Fin 2 → Fin S1024x1024x1.rank)
  bcast_S_S1024x1024x4 : S_.BroadcastsInDim S1024x1024x4 (![] : Fin 0 → Fin S1024x1024x4.rank)
  transposes_S1024x1024x4_S4x1024x1024_2_0_1 : S1024x1024x4.Transposes [2, 0, 1] S4x1024x1024
  bcast_S4x1024x1024_S1x4x1024x1024_1_2_3 : S4x1024x1024.BroadcastsInDim S1x4x1024x1024 (![1, 2, 3] : Fin 3 → Fin S1x4x1024x1024.rank)
  bcast_S1x4x1024x1024_S8x4x1024x1024_0_1_2_3 : S1x4x1024x1024.BroadcastsInDim S8x4x1024x1024 (![0, 1, 2, 3] : Fin 4 → Fin S8x4x1024x1024.rank)
  bcast_S8x1x1024x1024_S8x4x1024x1024_0_1_2_3 : S8x1x1024x1024.BroadcastsInDim S8x4x1024x1024 (![0, 1, 2, 3] : Fin 4 → Fin S8x4x1024x1024.rank)
  reducesTo_S8x4x1024x1024_S8x4x1024_d3 : S8x4x1024x1024.ReducesTo [3] S8x4x1024
  bcast_S_S8x4x1024 : S_.BroadcastsInDim S8x4x1024 (![] : Fin 0 → Fin S8x4x1024.rank)
  bcast_S8x4x1024_S8x4x1024x1_0_1_2 : S8x4x1024.BroadcastsInDim S8x4x1024x1 (![0, 1, 2] : Fin 3 → Fin S8x4x1024x1.rank)
  bcast_S8x4x1024x1_S8x4x1024x1024_0_1_2_3 : S8x4x1024x1.BroadcastsInDim S8x4x1024x1024 (![0, 1, 2, 3] : Fin 4 → Fin S8x4x1024x1024.rank)
  concatenates_S8x12x1024x64_S8x4x1024x64_S8x16x1024x64_d1 : Shape.Concatenates [S8x12x1024x64, S8x4x1024x64] S8x16x1024x64 1
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x4x1024x64_S8x4x1024x64_S8x4x1024x1024_3_3_2_2_01_01_wf : DotDims.WF S8x4x1024x64 S8x4x1024x64 S8x4x1024x1024 [3] [3] [2] [2] [0, 1] [0, 1]
  gather_S2047x4_S1024x1024x1_S1024x1024x4_2_0_n_n_0_2_14_wf : GatherDims.WF S2047x4 S1024x1024x1 S1024x1024x4 [2] [0] [] [0] [] 2 ![1, 4]
  dot_S8x4x1024x1024_S8x4x1024x64_S8x4x1024x64_3_2_2_3_01_01_wf : DotDims.WF S8x4x1024x1024 S8x4x1024x64 S8x4x1024x64 [3] [2] [2] [3] [0, 1] [0, 1]

variable [Facts₀]

def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x4x1024x64_S8x4x1024x64_S8x4x1024x1024_3_3_2_2_01_01 : DotDims S8x4x1024x64 S8x4x1024x64 S8x4x1024x1024 where
  lhsContracting := [3]
  rhsContracting := [3]
  lhsNonContracting := [2]
  rhsNonContracting := [2]
  lhsBatch := [0, 1]
  rhsBatch := [0, 1]
  wf := dot_S8x4x1024x64_S8x4x1024x64_S8x4x1024x1024_3_3_2_2_01_01_wf
def gather_S2047x4_S1024x1024x1_S1024x1024x4_2_0_n_n_0_2_14 : GatherDims S2047x4 S1024x1024x1 S1024x1024x4 where
  offsetDims := [2]
  collapsedSliceDims := [0]
  operandBatchingDims := []
  startIndicesBatchingDims := []
  startIndexMap := [0]
  indexVectorDim := 2
  sliceSizes := ![1, 4]
  wf := gather_S2047x4_S1024x1024x1_S1024x1024x4_2_0_n_n_0_2_14_wf
def dot_S8x4x1024x1024_S8x4x1024x64_S8x4x1024x64_3_2_2_3_01_01 : DotDims S8x4x1024x1024 S8x4x1024x64 S8x4x1024x64 where
  lhsContracting := [3]
  rhsContracting := [2]
  lhsNonContracting := [2]
  rhsNonContracting := [3]
  lhsBatch := [0, 1]
  rhsBatch := [0, 1]
  wf := dot_S8x4x1024x1024_S8x4x1024x64_S8x4x1024x64_3_2_2_3_01_01_wf

class Facts : Prop extends Facts₀ where

variable [Facts]
-- ==== Proof.AttnSpec.lean ====
/-
  Masked scaled-dot-product attention with sixteen heads, written index by index on the extended reals.

  For a row of scores r the attention weights are  exp (r j - top r) / Σ_k exp (r k - top r),  where top r is the
  maximum of the row taken from -∞ (and once more against -∞, as both programs spell it). A score is a dot product
  of a query row and a key row times the scale 1/8, replaced by the fill value -10⁹ where the mask bit is not set.
  Twelve heads use the rows of the query and key arrays as they are; the last four heads first add a learnt row (a
  [1024, 256] table read as [4, 1024, 64]) to each query and key row and multiply the scaled score by a gate entry.
  The output row is the weights' combination of the value rows.

  The scale: 1 / sqrt 64 = 1 / 8 = 0.125 exactly, so the quotient one program computes is the constant the other
  multiplies by. The mask: a bit widened to a 32-bit word and compared with zero gives the bit back.
-/
import Idealize.ShloMosaic.PureOps.Ideal
import Idealize.ShloMosaic.Lib.ValueIdx

noncomputable section

namespace Cert.Attn

open Idealize.ShloMosaic Idealize.ShloMosaic.ValueIdx

/-! ## The three constants -/

/-- The scale 0.125 as both programs come to hold it. -/
abbrev scaleW : EReal := Ideal.ofBits .f32 0x3E000000#32
/-- The fill value -10⁹ of a masked-out score. -/
abbrev fillW : EReal := Ideal.ofBits .f32 0xCE6E6B28#32
/-- -∞, where a row's maximum starts. -/
abbrev ninfW : EReal := Ideal.ofBits .f32 0xFF800000#32

theorem ofBits_one : Ideal.ofBits .f32 0x3F800000#32 = ((1 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- 1 / sqrt 64 is 1/8: sqrt 64 = 8 exactly. -/
theorem scale_eq :
    Ideal.div (Ideal.ofBits .f32 0x3F800000#32) (Ideal.sqrt (Ideal.ofBits .f32 0x42800000#32)) = scaleW := by
  have h8 : Real.sqrt 64 = 8 := by
    rw [show (64 : ℝ) = 8 ^ 2 by norm_num]; exact Real.sqrt_sq (by norm_num)
  rw [ofBits_one, ofBits_sixtyfour, Ideal.sqrt_coe, if_neg (by norm_num), h8,
    Ideal.div_coe (by norm_num : (8 : ℝ) ≠ 0)]
  show _ = Ideal.ofBits .f32 0x3E000000#32
  rw [ofBits_eighth, ← EReal.coe_mul]; norm_num

/-- A mask bit widened to 32 bits is non-zero exactly when the bit is set. -/
theorem bit_of_word (b : BitVec 1) : IntOp.cmpi .ne (b.setWidth 32) 0#32 = b := by
  revert b; decide

/-! ## One row -/

/-- A row's maximum from -∞, taken against -∞ once more. -/
def rowTop {n : ℕ} (r : Fin n → EReal) : EReal :=
  max ninfW ((Finset.univ : Finset (Fin n)).fold max ninfW r)

/-- The softmax weight of column j in the row r. -/
def prob {n : ℕ} (r : Fin n → EReal) (j : Fin n) : EReal :=
  Ideal.div (Ideal.exp (r j - rowTop r)) (∑ k : Fin n, Ideal.exp (r k - rowTop r))

/-- A masked scaled score of the first twelve heads: the dot product of a query row and a key row times the scale where
    the mask bit is set, the fill value elsewhere. -/
def gscore {D : ℕ} (qrow krow : Fin D → EReal) (b : BitVec 1) : EReal :=
  Scalar.select b ((∑ d : Fin D, qrow d * krow d) * scaleW) fillW

/-- A masked score of the last four heads: the learnt rows added to the query and key rows, the scaled dot product
    multiplied by the gate entry. -/
def lscore {D : ℕ} (qrow aqrow krow akrow : Fin D → EReal) (g : EReal) (b : BitVec 1) : EReal :=
  Scalar.select b (((∑ d : Fin D, (qrow d + aqrow d) * (krow d + akrow d)) * scaleW) * g) fillW

/-! ## The arrays -/

abbrev SQ : Shape := ⟨4, ![8, 16, 1024, 64]⟩
abbrev SM : Shape := ⟨4, ![8, 1, 1024, 1024]⟩
abbrev SW : Shape := ⟨2, ![1024, 256]⟩
abbrev SG : Shape := ⟨3, ![4, 1024, 1024]⟩

/-- Head h of the first twelve among the sixteen. -/
def gloHead (h : Fin 12) : Fin 16 := ⟨h.val, by have := h.isLt; omega⟩
/-- Head h of the last four among the sixteen. -/
def locHead (h : Fin 4) : Fin 16 := ⟨12 + h.val, by have := h.isLt; omega⟩

/-- Where entry (h, p, d) of the learnt table read as [4, 1024, 64] sits in the [1024, 256] table: the same position
    in row-major order. -/
def tableIdx (h : Fin 4) (p : Fin 1024) (d : Fin 64) : SW.Idx :=
  ix2 (⟨((h.val * 1024 + p.val) * 64 + d.val) / 256, by have := h.isLt; have := p.isLt; have := d.isLt; omega⟩ : Fin 1024)
    (⟨((h.val * 1024 + p.val) * 64 + d.val) % 256, by omega⟩ : Fin 256)

/-- The masked score of batch b, head h (of twelve), query row p, key row j. -/
def gS (Q K : SQ.Idx → EReal) (mask : SM.Idx → BitVec 1) (b : Fin 8) (h : Fin 12) (p j : Fin 1024) : EReal :=
  gscore (fun d : Fin 64 => Q (ix4 b (gloHead h) p d)) (fun d : Fin 64 => K (ix4 b (gloHead h) j d)) (mask (ix4 b (0 : Fin 1) p j))

/-- The masked score of batch b, head h (of the last four), query row p, key row j. -/
def lS (Q K : SQ.Idx → EReal) (Wq Wk : SW.Idx → EReal) (gate : SG.Idx → EReal) (mask : SM.Idx → BitVec 1)
    (b : Fin 8) (h : Fin 4) (p j : Fin 1024) : EReal :=
  lscore (fun d : Fin 64 => Q (ix4 b (locHead h) p d)) (fun d : Fin 64 => Wq (tableIdx h p d))
    (fun d : Fin 64 => K (ix4 b (locHead h) j d)) (fun d : Fin 64 => Wk (tableIdx h j d)) (gate (ix3 h p j)) (mask (ix4 b (0 : Fin 1) p j))

/-- The attention weights of the first twelve heads. -/
def gP (Q K : SQ.Idx → EReal) (mask : SM.Idx → BitVec 1) : (⟨4, ![8, 12, 1024, 1024]⟩ : Shape).Idx → EReal :=
  fun i => prob (fun j => gS Q K mask (i 0) (i 1) (i 2) j) (i 3)

/-- The attention weights of the last four heads. -/
def lP (Q K : SQ.Idx → EReal) (Wq Wk : SW.Idx → EReal) (gate : SG.Idx → EReal) (mask : SM.Idx → BitVec 1) :
    (⟨4, ![8, 4, 1024, 1024]⟩ : Shape).Idx → EReal :=
  fun i => prob (fun j => lS Q K Wq Wk gate mask (i 0) (i 1) (i 2) j) (i 3)

/-- The outputs of the first twelve heads: the weights' combination of the value rows. -/
def gO (Q K Vv : SQ.Idx → EReal) (mask : SM.Idx → BitVec 1) : (⟨4, ![8, 12, 1024, 64]⟩ : Shape).Idx → EReal :=
  fun i => ∑ k : Fin 1024, gP Q K mask (ix4 (i 0) (i 1) (i 2) k) * Vv (ix4 (i 0) (gloHead (i 1)) k (i 3))

/-- The outputs of the last four heads. -/
def lO (Q K Vv : SQ.Idx → EReal) (Wq Wk : SW.Idx → EReal) (gate : SG.Idx → EReal) (mask : SM.Idx → BitVec 1) :
    (⟨4, ![8, 4, 1024, 64]⟩ : Shape).Idx → EReal :=
  fun i => ∑ k : Fin 1024, lP Q K Wq Wk gate mask (ix4 (i 0) (i 1) (i 2) k) * Vv (ix4 (i 0) (locHead (i 1)) k (i 3))

end Cert.Attn

end
-- ==== Proof.RefValue.lean ====
/-
  The reference program's three results as the specification's functions of the argument arrays.

  The reference slices the sixteen heads into twelve and four, adds the learnt tables (read as [1, 4, 1024, 64] and
  copied over the batch) to the last four heads' queries and keys, forms the batched products of query rows and key
  rows, multiplies by 1 / sqrt 64 (and, for the four heads, by the gate copied over the batch), selects the fill value
  where the mask bit (copied over the heads) is not set, and takes the softmax along the last axis: the maximum of each
  row from -∞, the shifted exponentials, their row sums from 0, the quotient. The outputs are the batched products of
  the weights with the value rows, joined along the head axis. Read at an index, each step is the specification's.
-/
import proofs.«171366_j8272107012450_2_alg».proof.Proof.RefRead
import proofs.«171366_j8272107012450_2_alg».proof.Proof.AttnSpec

set_option maxRecDepth 16384

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx Idealize.SL.Sem

/-- Two rank-4 indices with the same coordinates. -/
local macro "idx4" : tactic =>
  `(tactic| (funext a; apply Fin.ext; match a with | ⟨0, _⟩ => rfl | ⟨1, _⟩ => rfl | ⟨2, _⟩ => rfl | ⟨3, _⟩ => rfl))
/-- Two rank-3 indices with the same coordinates. -/
local macro "idx3" : tactic =>
  `(tactic| (funext a; apply Fin.ext; match a with | ⟨0, _⟩ => rfl | ⟨1, _⟩ => rfl | ⟨2, _⟩ => rfl))

variable (x0 x1 x2 : (⟨S8x16x1024x64, .f32⟩ : BufTy).Contents (Elt Ideal)) (x3 x4 : (⟨S1024x256, .f32⟩ : BufTy).Contents (Elt Ideal))
  (x5 : (⟨S2047x4, .f32⟩ : BufTy).Contents (Elt Ideal)) (x6 : (⟨S8x1x1024x1024, .i1⟩ : BufTy).Contents (Elt Ideal))

/-! ## The scale -/

/-- 1 / sqrt 64, wherever it is copied to, is the scale 0.125. -/
theorem scale_read (j : S_.Idx) : val_main_v1 (F := Ideal) j = Attn.scaleW := by
  rw [val_main_v1_apply, val_main_cst_0_apply, val_main_v0_apply, val_main_cst_apply]
  exact Attn.scale_eq

/-! ## The twelve heads -/

/-- The twelve heads' masked scaled scores. -/
theorem g_score_read (i : S8x12x1024x1024.Idx) :
    val_main_v17 (F := Ideal) x0 x1 x6 i = Attn.gS x0 x1 x6 (i 0) (i 1) (i 2) (i 3) := by
  rw [val_main_v17_apply, val_main_v16_apply, val_main_v14_apply, val_main_call0_v1_apply, val_main_call0_v2_apply,
    val_main_call0_v0_apply, val_main_cst_1_apply, val_main_v15_apply, scale_read]
  unfold Attn.gS Attn.gscore
  have hm : idx_main_call0_v1 i = ix4 (i 0) (0 : Fin 1) (i 2) (i 3) := by idx4
  have hs : ∀ k : Fin 64, val_main_v2 (F := Ideal) x0 (lidx_main_v14 i k) * val_main_v3 (F := Ideal) x1 (ridx_main_v14 i k)
      = x0 (ix4 (i 0) (Attn.gloHead (i 1)) (i 2) k) * x1 (ix4 (i 0) (Attn.gloHead (i 1)) (i 3) k) := fun k => by
    rw [val_main_v2_apply, val_main_v3_apply]
    exact congrArg₂ (· * ·) (congrArg x0 (by idx4)) (congrArg x1 (by idx4))
  rw [hm, Finset.sum_congr rfl fun k _ => hs k]
  rfl

/-- A reduction along the last axis of the twelve-head score array reads row (j 0, j 1, j 2). -/
theorem g_hred : S8x12x1024x1024.Reduces [3] S8x12x1024 := by decide

/-- The row maxima of the twelve heads: the maximum, from -∞ and against -∞ once more, of the masked scores of the row. -/
theorem g_top_read (j : S8x12x1024.Idx) :
    val_main_v20 (F := Ideal) x0 x1 x6 j = Attn.rowTop (fun k : Fin 1024 => val_main_v17 (F := Ideal) x0 x1 x6 (ix4 (j 0) (j 1) (j 2) k)) := by
  rw [val_main_v20_apply, val_main_v19_apply, val_main_cst_3_apply]
  unfold val_main_v18
  rw [Host.reduce_eq_fold_single FloatOps.maximumf _ _ reducesTo_S8x12x1024x1024_S8x12x1024_d3 g_hred h_S_ j]
  unfold Attn.rowTop
  refine congrArg (max _) (congrArg (Finset.fold max _ · Finset.univ) ?_)
  funext k
  exact congrArg (val_main_v17 (F := Ideal) x0 x1 x6) (by idx4 : g_hred.lift j k = ix4 (j 0) (j 1) (j 2) k)

/-- The shifted exponential at (b, h, p, k). -/
theorem g_shifted_read (b : Fin 8) (h : Fin 12) (p k : Fin 1024) :
    val_main_v24 (F := Ideal) x0 x1 x6 (ix4 b h p k)
      = Ideal.exp (Attn.gS x0 x1 x6 b h p k - Attn.rowTop (fun k' : Fin 1024 => Attn.gS x0 x1 x6 b h p k')) := by
  rw [val_main_v24_apply, val_main_v23_apply, val_main_v22_apply, val_main_v21_apply, g_top_read, g_score_read]
  simp only [g_score_read]
  rfl

/-- The twelve heads' weights are the specification's. -/
theorem g_weights_read (i : S8x12x1024x1024.Idx) :
    val_main_v28 (F := Ideal) x0 x1 x6 i = Attn.gP x0 x1 x6 i := by
  rw [val_main_v28_apply, val_main_v27_apply, val_main_v26_apply, val_main_v25_apply, val_main_cst_4_apply]
  have e1 : val_main_v24 (F := Ideal) x0 x1 x6 i = _ :=
    (congrArg (val_main_v24 (F := Ideal) x0 x1 x6) (eq_ix4 i)).trans (g_shifted_read x0 x1 x6 (i 0) (i 1) (i 2) (i 3))
  have e2 : ∀ k : Fin 1024, val_main_v24 (F := Ideal) x0 x1 x6 (idx_main_v25 (idx_main_v26 (idx_main_v27 i)) k) = _ := fun k =>
    (congrArg (val_main_v24 (F := Ideal) x0 x1 x6) (by idx4 : idx_main_v25 (idx_main_v26 (idx_main_v27 i)) k = ix4 (i 0) (i 1) (i 2) k)).trans
      (g_shifted_read x0 x1 x6 (i 0) (i 1) (i 2) k)
  rw [e1, Finset.sum_congr rfl fun k _ => e2 k]
  show Ideal.div _ (Ideal.ofBits .f32 0x00000000#32 + _) = _
  rw [Ideal.ofBits_zero_f32, zero_add]
  rfl

/-- The twelve heads' outputs are the specification's. -/
theorem g_outputs_read (i : S8x12x1024x64.Idx) :
    val_main_v29 (F := Ideal) x0 x1 x2 x6 i = Attn.gO x0 x1 x2 x6 i := by
  rw [val_main_v29_apply]
  unfold Attn.gO
  refine Finset.sum_congr rfl fun k _ => ?_
  rw [g_weights_read, val_main_v4_apply]
  exact congrArg₂ (· * ·) (congrArg (Attn.gP x0 x1 x6) (by idx4)) (congrArg x2 (by idx4))

/-! ## The four heads -/

/-- The four heads' masked, gated, scaled scores. -/
theorem l_score_read (i : S8x4x1024x1024.Idx) :
    val_main_v62 (F := Ideal) x0 x1 x3 x4 x5 x6 i
      = Attn.lS x0 x1 x3 x4 (val_main_v58 (F := Ideal) x5) x6 (i 0) (i 1) (i 2) (i 3) := by
  rw [val_main_v62_apply, val_main_v61_apply, val_main_v42_apply, val_main_v40_apply, val_main_call1_v1_apply, val_main_call1_v2_apply,
    val_main_call1_v0_apply, val_main_cst_11_apply, val_main_v41_apply, scale_read, val_main_v60_apply, val_main_v59_apply]
  unfold Attn.lS Attn.lscore
  have hm : idx_main_call1_v1 i = ix4 (i 0) (0 : Fin 1) (i 2) (i 3) := by idx4
  have hg : idx_main_v59 (idx_main_v60 i) = ix3 (i 1) (i 2) (i 3) := by idx3
  have hs : ∀ k : Fin 64, val_main_v10 (F := Ideal) x0 x3 (lidx_main_v40 i k) * val_main_v13 (F := Ideal) x1 x4 (ridx_main_v40 i k)
      = (x0 (ix4 (i 0) (Attn.locHead (i 1)) (i 2) k) + x3 (Attn.tableIdx (i 1) (i 2) k))
        * (x1 (ix4 (i 0) (Attn.locHead (i 1)) (i 3) k) + x4 (Attn.tableIdx (i 1) (i 3) k)) := fun k => by
    rw [val_main_v10_apply, val_main_v13_apply, val_main_v5_apply, val_main_v6_apply, val_main_v9_apply, val_main_v12_apply,
      val_main_v8_apply, val_main_v11_apply]
    have a0 : idx_main_v5 (lidx_main_v40 i k) = ix4 (i 0) (Attn.locHead (i 1)) (i 2) k := by idx4
    have a1 : idx_main_v6 (ridx_main_v40 i k) = ix4 (i 0) (Attn.locHead (i 1)) (i 3) k := by idx4
    have a2 : idx_main_v8 (idx_main_v9 (lidx_main_v40 i k)) = Attn.tableIdx (i 1) (i 2) k := by
      funext a; apply Fin.ext
      match a with
      | ⟨0, _⟩ => exact (by rw [Nat.zero_mul, Nat.zero_add] : (((0 * 4 + (i 1).val) * 1024 + (i 2).val) * 64 + k.val) / 256 = (((i 1).val * 1024 + (i 2).val) * 64 + k.val) / 256)
      | ⟨1, _⟩ => exact (by rw [Nat.zero_mul, Nat.zero_add] : (((0 * 4 + (i 1).val) * 1024 + (i 2).val) * 64 + k.val) % 256 = (((i 1).val * 1024 + (i 2).val) * 64 + k.val) % 256)
    have a3 : idx_main_v11 (idx_main_v12 (ridx_main_v40 i k)) = Attn.tableIdx (i 1) (i 3) k := by
      funext a; apply Fin.ext
      match a with
      | ⟨0, _⟩ => exact (by rw [Nat.zero_mul, Nat.zero_add] : (((0 * 4 + (i 1).val) * 1024 + (i 3).val) * 64 + k.val) / 256 = (((i 1).val * 1024 + (i 3).val) * 64 + k.val) / 256)
      | ⟨1, _⟩ => exact (by rw [Nat.zero_mul, Nat.zero_add] : (((0 * 4 + (i 1).val) * 1024 + (i 3).val) * 64 + k.val) % 256 = (((i 1).val * 1024 + (i 3).val) * 64 + k.val) % 256)
    rw [a0, a1, a2, a3]
    rfl
  rw [hm, hg, Finset.sum_congr rfl fun k _ => hs k]
  rfl

/-- A reduction along the last axis of the four-head score array reads row (j 0, j 1, j 2). -/
theorem l_hred : S8x4x1024x1024.Reduces [3] S8x4x1024 := by decide

/-- The row maxima of the four heads: the maximum, from -∞ and against -∞ once more, of the masked scores of the row. -/
theorem l_top_read (j : S8x4x1024.Idx) :
    val_main_v65 (F := Ideal) x0 x1 x3 x4 x5 x6 j = Attn.rowTop (fun k : Fin 1024 => val_main_v62 (F := Ideal) x0 x1 x3 x4 x5 x6 (ix4 (j 0) (j 1) (j 2) k)) := by
  rw [val_main_v65_apply, val_main_v64_apply, val_main_cst_13_apply]
  unfold val_main_v63
  rw [Host.reduce_eq_fold_single FloatOps.maximumf _ _ reducesTo_S8x4x1024x1024_S8x4x1024_d3 l_hred h_S_ j]
  unfold Attn.rowTop
  refine congrArg (max _) (congrArg (Finset.fold max _ · Finset.univ) ?_)
  funext k
  exact congrArg (val_main_v62 (F := Ideal) x0 x1 x3 x4 x5 x6) (by idx4 : l_hred.lift j k = ix4 (j 0) (j 1) (j 2) k)

/-- The shifted exponential at (b, h, p, k). -/
theorem l_shifted_read (b : Fin 8) (h : Fin 4) (p k : Fin 1024) :
    val_main_v69 (F := Ideal) x0 x1 x3 x4 x5 x6 (ix4 b h p k)
      = Ideal.exp (Attn.lS x0 x1 x3 x4 (val_main_v58 (F := Ideal) x5) x6 b h p k - Attn.rowTop (fun k' : Fin 1024 => Attn.lS x0 x1 x3 x4 (val_main_v58 (F := Ideal) x5) x6 b h p k')) := by
  rw [val_main_v69_apply, val_main_v68_apply, val_main_v67_apply, val_main_v66_apply, l_top_read, l_score_read]
  simp only [l_score_read]
  rfl

/-- The four heads' weights are the specification's. -/
theorem l_weights_read (i : S8x4x1024x1024.Idx) :
    val_main_v73 (F := Ideal) x0 x1 x3 x4 x5 x6 i = Attn.lP x0 x1 x3 x4 (val_main_v58 (F := Ideal) x5) x6 i := by
  rw [val_main_v73_apply, val_main_v72_apply, val_main_v71_apply, val_main_v70_apply, val_main_cst_14_apply]
  have e1 : val_main_v69 (F := Ideal) x0 x1 x3 x4 x5 x6 i = _ :=
    (congrArg (val_main_v69 (F := Ideal) x0 x1 x3 x4 x5 x6) (eq_ix4 i)).trans (l_shifted_read x0 x1 x3 x4 x5 x6 (i 0) (i 1) (i 2) (i 3))
  have e2 : ∀ k : Fin 1024, val_main_v69 (F := Ideal) x0 x1 x3 x4 x5 x6 (idx_main_v70 (idx_main_v71 (idx_main_v72 i)) k) = _ := fun k =>
    (congrArg (val_main_v69 (F := Ideal) x0 x1 x3 x4 x5 x6) (by idx4 : idx_main_v70 (idx_main_v71 (idx_main_v72 i)) k = ix4 (i 0) (i 1) (i 2) k)).trans
      (l_shifted_read x0 x1 x3 x4 x5 x6 (i 0) (i 1) (i 2) k)
  rw [e1, Finset.sum_congr rfl fun k _ => e2 k]
  show Ideal.div _ (Ideal.ofBits .f32 0x00000000#32 + _) = _
  rw [Ideal.ofBits_zero_f32, zero_add]
  rfl

/-- The four heads' outputs are the specification's. -/
theorem l_outputs_read (i : S8x4x1024x64.Idx) :
    val_main_v74 (F := Ideal) x0 x1 x2 x3 x4 x5 x6 i = Attn.lO x0 x1 x2 x3 x4 (val_main_v58 (F := Ideal) x5) x6 i := by
  rw [val_main_v74_apply]
  unfold Attn.lO
  refine Finset.sum_congr rfl fun k _ => ?_
  rw [l_weights_read, val_main_v7_apply]
  exact congrArg₂ (· * ·) (congrArg (Attn.lP x0 x1 x3 x4 (val_main_v58 (F := Ideal) x5) x6) (by idx4)) (congrArg x2 (by idx4))

/-! ## The three results -/

variable (m : (ℓ : Loc nD τ sig) → Buf (Elt Ideal) ℓ) (c : Dev nD)

/-- The twelve heads' weights. -/
theorem weights12 : Cert.ReferenceIdeal.Value.res_main_v28 m c
    = Attn.gP (m ((c.tc : Thread nD τ).loc main_arg0)) (m ((c.tc : Thread nD τ).loc main_arg1)) (m ((c.tc : Thread nD τ).loc main_arg6)) :=
  (val_main_v28_eq m c).trans (funext fun i => g_weights_read _ _ _ i)

/-- The four heads' weights. -/
theorem weights4 : Cert.ReferenceIdeal.Value.res_main_v73 m c
    = Attn.lP (m ((c.tc : Thread nD τ).loc main_arg0)) (m ((c.tc : Thread nD τ).loc main_arg1)) (m ((c.tc : Thread nD τ).loc main_arg3))
        (m ((c.tc : Thread nD τ).loc main_arg4)) (val_main_v58 (F := Ideal) (m ((c.tc : Thread nD τ).loc main_arg5))) (m ((c.tc : Thread nD τ).loc main_arg6)) :=
  (val_main_v73_eq m c).trans (funext fun i => l_weights_read _ _ _ _ _ _ i)

/-- The outputs: the two groups' outputs joined along the head axis. -/
theorem outputs16 : Cert.ReferenceIdeal.Value.res_main_v75 m c
    = concatenate S8x16x1024x64 1
        [⟨S8x12x1024x64, Attn.gO (m ((c.tc : Thread nD τ).loc main_arg0)) (m ((c.tc : Thread nD τ).loc main_arg1)) (m ((c.tc : Thread nD τ).loc main_arg2))
            (m ((c.tc : Thread nD τ).loc main_arg6))⟩,
         ⟨S8x4x1024x64, Attn.lO (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
            (val_main_v58 (F := Ideal) (m ((c.tc : Thread nD τ).loc main_arg5))) (m ((c.tc : Thread nD τ).loc main_arg6))⟩]
        concatenates_S8x12x1024x64_S8x4x1024x64_S8x16x1024x64_d1 := by
  rw [val_main_v75_eq]
  unfold val_main_v75
  rw [show val_main_v29 (F := Ideal) (m ((c.tc : Thread nD τ).loc main_arg0)) (m ((c.tc : Thread nD τ).loc main_arg1)) (m ((c.tc : Thread nD τ).loc main_arg2))
        (m ((c.tc : Thread nD τ).loc main_arg6)) = Attn.gO _ _ _ _ from funext fun i => g_outputs_read _ _ _ _ i,
    show val_main_v74 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) = Attn.lO _ _ _ _ _ _ _ from funext fun i => l_outputs_read _ _ _ _ _ _ _ i]

end Cert.ReferenceIdeal.RefValue

end
-- ==== Proof.KernelRun.lean ====
/-
  The idealized kernel program's run, with every buffer named at its end.

  The program is five stretches: host operations, the twelve-head region, one host operation, the four-head region, and
  the concatenation. After the last stretch every buffer that outlives a region holds the fold of the stretches from
  the launch memory. Read at the three result buffers, that fold is: the concatenation of the two regions' output
  arrays along the head axis, and the two regions' weight arrays as their write-backs left them.
-/
import proofs.«171366_j8272107012450_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and at its end every buffer that outlives the regions holds the fold of
    the five stretches from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The twelve heads' weights: region 0's second output array as its write-backs left it. -/
theorem W5_weights0 (c : Dev nD) : W5 m ρ c (Proc.devRef .tc main_v29_1) = (dat0 (V1 m ρ) c).arrAt 5 cfg0.N :=
  calc W5 m ρ c (Proc.devRef .tc main_v29_1)
    _ = W4 m ρ c (Proc.devRef .tc main_v29_1) := StableHlo.after_of_forall_not_mem (b := Proc.devRef .tc main_v29_1) _ _ (List.forall_iff_forall_mem.mp (by
          simp only [hostOps2, List.Forall, StableHlo.binary_writes, Finset.mem_singleton]
          exact StableHlo.devRef_ne_of_ne (by decide)))
    _ = W3 m ρ c (Proc.devRef .tc main_v29_1) := W4_of_ne m ρ c main_v29_1 (by decide)
    _ = W2 m ρ c (Proc.devRef .tc main_v29_1) := StableHlo.after_of_forall_not_mem (b := Proc.devRef .tc main_v29_1) _ _ (List.forall_iff_forall_mem.mp (by
          simp only [hostOps1, List.Forall, StableHlo.unary_writes, Finset.mem_singleton]
          exact StableHlo.devRef_ne_of_ne (by decide)))
    _ = (dat0 (V1 m ρ) c).arrAt 5 cfg0.N := W2_arr m ρ c 5

/-- The four heads' weights: region 1's second output array as its write-backs left it. -/
theorem W5_weights1 (c : Dev nD) : W5 m ρ c (Proc.devRef .tc main_v31_1) = (dat1 (V3 m ρ) c).arrAt 8 cfg1.N :=
  calc W5 m ρ c (Proc.devRef .tc main_v31_1)
    _ = W4 m ρ c (Proc.devRef .tc main_v31_1) := StableHlo.after_of_forall_not_mem (b := Proc.devRef .tc main_v31_1) _ _ (List.forall_iff_forall_mem.mp (by
          simp only [hostOps2, List.Forall, StableHlo.binary_writes, Finset.mem_singleton]
          exact StableHlo.devRef_ne_of_ne (by decide)))
    _ = (dat1 (V3 m ρ) c).arrAt 8 cfg1.N := W4_arr m ρ c 8

/-- The twelve heads' outputs when the concatenation reads them: region 0's first output array. -/
theorem W4_out0 (c : Dev nD) : W4 m ρ c (Proc.devRef .tc main_v29_0) = (dat0 (V1 m ρ) c).arrAt 4 cfg0.N :=
  calc W4 m ρ c (Proc.devRef .tc main_v29_0)
    _ = W3 m ρ c (Proc.devRef .tc main_v29_0) := W4_of_ne m ρ c main_v29_0 (by decide)
    _ = W2 m ρ c (Proc.devRef .tc main_v29_0) := StableHlo.after_of_forall_not_mem (b := Proc.devRef .tc main_v29_0) _ _ (List.forall_iff_forall_mem.mp (by
          simp only [hostOps1, List.Forall, StableHlo.unary_writes, Finset.mem_singleton]
          exact StableHlo.devRef_ne_of_ne (by decide)))
    _ = (dat0 (V1 m ρ) c).arrAt 4 cfg0.N := W2_arr m ρ c 4

/-- The four heads' outputs when the concatenation reads them: region 1's first output array. -/
theorem W4_out1 (c : Dev nD) : W4 m ρ c (Proc.devRef .tc main_v31_0) = (dat1 (V3 m ρ) c).arrAt 7 cfg1.N :=
  W4_arr m ρ c 7

/-- An array of twelve heads and an array of four heads joined along the head axis. -/
abbrev joined (a : S8x12x1024x64.Idx → Elt F .f32) (b : S8x4x1024x64.Idx → Elt F .f32) : S8x16x1024x64.Idx → Elt F .f32 :=
  concatenate S8x16x1024x64 1 [⟨S8x12x1024x64, a⟩, ⟨S8x4x1024x64, b⟩] concatenates_S8x12x1024x64_S8x4x1024x64_S8x16x1024x64_d1

/-- The result: the two regions' outputs joined along the head axis. -/
theorem W5_out (c : Dev nD) : W5 m ρ c (Proc.devRef .tc main_v32)
    = joined ((dat0 (V1 m ρ) c).arrAt 4 cfg0.N) ((dat1 (V3 m ρ) c).arrAt 7 cfg1.N) := by
  rw [← W4_out0 m ρ c, ← W4_out1 m ρ c]
  show StableHlo.after hostOps2 (W4 m ρ c) (Proc.devRef .tc main_v32) = _
  after_results

end Cert.KernelIdeal.Run

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.SoftmaxRows.lean ====
/-
  The softmax of the rows of a matrix, as a vector program spells it, read at one entry.

  The program takes each row's maximum by a reduction along the columns started at -∞, takes it against -∞ once more,
  keeps the maxima as a column and copies the column across the row; subtracts, exponentiates, sums each row the same
  way (from 0), copies the sums across, and divides. At entry (p, q) that is  exp (s p q - top) / Σ_j exp (s p j - top)
  with top the maximum of row p: the weight of column q in row p.
-/
import Idealize.ShloMosaic.Lib.ValueLayout
import Idealize.ShloMosaic.PureOps.Ideal.Laws
import proofs.«171366_j8272107012450_2_alg».proof.Proof.AttnSpec
import proofs.«171366_j8272107012450_2_alg».proof.Proof.LibMergedAxes

noncomputable section

namespace Cert.SoftmaxRows

open Idealize.ShloMosaic Idealize.ShloMosaic.ValueIdx Cert.LibMergedAxes

variable {a b : ℕ}

/-- The index a reduction along the columns reads at column j of row p. -/
theorem lift_row (hr : (⟨2, ![a, b]⟩ : Shape).Reduces [1] ⟨1, ![a]⟩) (p : Fin a) (j : Fin b) :
    hr.lift (ix1 p) j = ix2 p j :=
  funext fun ax => Fin.ext (by match ax with | ⟨0, _⟩ => rfl | ⟨1, _⟩ => rfl)

/-- The column of row maxima, copied across the rows, holds row p's maximum at (p, q). -/
theorem topColumn_apply (s : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ s 0xFF800000#32 hr hφ hacc)) hc) hb (ix2 p q)
      = Attn.rowTop (fun j : Fin b => s (ix2 p j)) := by
  rw [broadcastTo_a1_ab_apply, shapeCast_a_a1_apply, maximumf_apply, broadcast_apply,
    Ideal.multiReduction_maximumf_single]
  unfold Attn.rowTop
  refine congrArg (max _) (congrArg (Finset.fold max _ · Finset.univ) ?_)
  funext j
  exact congrArg s (lift_row hr p j)

/-- The column of row sums, copied across the rows, holds row p's sum at (p, q). -/
theorem sumColumn_apply (e : FVec Ideal ⟨2, ![a, b]⟩ .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩
        (multiReduction .add [1] ⟨1, ![a]⟩ e 0x00000000#32 hr hφ hacc) hc) hb (ix2 p q)
      = ∑ j : Fin b, e (ix2 p j) := by
  rw [broadcastTo_a1_ab_apply, shapeCast_a_a1_apply, Ideal.multiReduction_add_single]
  exact Finset.sum_congr rfl fun j _ => congrArg e (lift_row hr p j)

/-- The shifted exponentials: entry (p, j) is exp (s p j - top of row p). -/
theorem shifted_apply (s : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    exp (subf s (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ s 0xFF800000#32 hr hφ hacc)) hc) hb)) (ix2 p j)
      = Ideal.exp (s (ix2 p j) - Attn.rowTop (fun k : Fin b => s (ix2 p k))) := by
  show Ideal.exp (subf s _ (ix2 p j)) = _
  rw [subf_apply, topColumn_apply]

/-- The quotient of the shifted exponentials by their row sums is the softmax weight. -/
theorem weights_apply (s : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hacc0 : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (e : FVec Ideal ⟨2, ![a, b]⟩ .f32)
    (he : e = exp (subf s (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ s 0xFF800000#32 hr hφ hacc)) hc) hb)))
    (p : Fin a) (q : Fin b) :
    divf e (broadcastTo ⟨2, ![a, b]⟩ (shapeCast ⟨2, ![a, 1]⟩
        (multiReduction .add [1] ⟨1, ![a]⟩ e 0x00000000#32 hr hφ hacc0) hc) hb) (ix2 p q)
      = Attn.prob (fun j : Fin b => s (ix2 p j)) q := by
  rw [divf_apply, sumColumn_apply]
  subst he
  rw [shifted_apply]
  unfold Attn.prob
  exact congrArg (Ideal.div _) (Finset.sum_congr rfl fun j _ => shifted_apply s hr hφ hacc hc hb p j)

end Cert.SoftmaxRows

end
-- ==== Proof.LibLeadingUnits.lean ====
/-
  Shape casts that drop or add two leading axes of extent one, read at an index written by coordinates.

  A shape cast keeps the row-major position of every element, and a coordinate on an axis of extent one is zero, so
  an array [1, 1, a, b] cast to [a, b] reads (i, j) at (u, v, i, j), and an array [a, b] cast to [1, 1, a, b] reads
  (u, v, i, j) at (i, j), whatever the unit coordinates u and v.
-/
import Idealize.ShloMosaic.Lib.ValueLayout

namespace Cert.LibLeadingUnits

open Idealize.ShloMosaic Idealize.ShloMosaic.ValueIdx

variable {α : Type}

/-- A [1, 1, a, b] array cast to [a, b] reads, at (i, j), the operand at (u, v, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (u v : Fin 1) (i : Fin a) (j : Fin b) :
    shapeCast ⟨2, ![a, b]⟩ x h (ix2 i j) = x (ix4 u v i j) :=
  shapeCast_apply x h _ _ (by
    have hu : u.val = 0 := by omega
    have hv : v.val = 0 := by omega
    rw [Shape.rowMajor_val_four, Shape.rowMajor_val_two]
    show ((u.val * 1 + v.val) * a + i.val) * b + j.val = i.val * b + j.val
    simp [hu, hv])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp [hu, hv])

end Cert.LibLeadingUnits
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.GlobalBlock.lean ====
/-
  The twelve-head region's body, read at one entry of each of its two output blocks.

  The body loads a query block, a key block and a value block [1, 1, 1024, 64] and a mask block [1, 1, 1024, 1024] of
  32-bit words. With the unit axes dropped: the scores are the product of the query rows with the key rows, times
  0.125, replaced by the fill value where the mask word is zero; the weights are the softmax of each score row; the
  output is the product of the weights with the value rows. Both results are stored with the unit axes put back.
-/
import proofs.«171366_j8272107012450_2_alg».proof.Proof.Gen.KernelIdeal.Frame
import proofs.«171366_j8272107012450_2_alg».proof.Proof.SoftmaxRows
import proofs.«171366_j8272107012450_2_alg».proof.Proof.LibLeadingUnits
import proofs.«171366_j8272107012450_2_alg».proof.Proof.LibTransposedMatmul
import proofs.«171366_j8272107012450_2_alg».proof.Proof.LibPlainMatmul

noncomputable section

namespace Cert.KernelIdeal.GlobalBlock

open Idealize.ShloMosaic Idealize.ShloMosaic.ValueIdx Cert.KernelIdeal Cert.KernelIdeal.Gen Cert.LibLeadingUnits

theorem zeros4 : (![0, 0, 0, 0] : Fin 4 → Nat) = fun _ => 0 := funext fun a => by fin_cases a <;> rfl

/-- The product of the query rows with the key rows, at (p, j): the dot product of query row p and key row j. -/
theorem rows_product (x0 x1 : Vec Ideal S1x1x1024x64 .f32) (p j : Fin 1024) :
    matmul (F := Ideal) dot_S1024x64_S1024x64_S1024x1024_1_1_0_0_n_n (some .fp32) (shapeCast S1024x64 x0 shapeCasts_S1x1x1024x64_S1024x64 : FVec Ideal S1024x64 .f32)
        (shapeCast S1024x64 x1 shapeCasts_S1x1x1024x64_S1024x64 : FVec Ideal S1024x64 .f32) (constant S1024x1024 .f32 0x00000000#32) (ix2 p j)
      = ∑ d : Fin 64, x0 (ix4 (0 : Fin 1) (0 : Fin 1) p d) * x1 (ix4 (0 : Fin 1) (0 : Fin 1) j d) :=
  (TransposedMatmul.apply_zero (M := 1024) (K := 64) (N := 1024) (shapeCast S1024x64 x0 shapeCasts_S1x1x1024x64_S1024x64)
      (shapeCast S1024x64 x1 shapeCasts_S1x1x1024x64_S1024x64) p j).trans
    (Finset.sum_congr rfl fun d _ => by
      rw [shapeCast_11ab_ab_apply x0 _ 0 0 p d, shapeCast_11ab_ab_apply x1 _ 0 0 j d])

/-- The masked scaled scores of the block. -/
def scores (x0 x1 : Vec Ideal S1x1x1024x64 .f32) (x3 : Vec Ideal S1x1x1024x1024 .i32) : FVec Ideal S1024x1024 .f32 :=
  select (cmpi .ne (shapeCast S1024x1024 x3 shapeCasts_S1x1x1024x1024_S1024x1024) (constantI S1024x1024 32 0#32))
    (mulf (matmul (F := Ideal) dot_S1024x64_S1024x64_S1024x1024_1_1_0_0_n_n (some .fp32) (shapeCast S1024x64 x0 shapeCasts_S1x1x1024x64_S1024x64 : FVec Ideal S1024x64 .f32)
        (shapeCast S1024x64 x1 shapeCasts_S1x1x1024x64_S1024x64 : FVec Ideal S1024x64 .f32) (constant S1024x1024 .f32 0x00000000#32))
      (broadcast S1024x1024 (Scalar.ofBits (F := Ideal) .f32 0x3E000000#32)))
    (broadcast S1024x1024 (Scalar.ofBits (F := Ideal) .f32 0xCE6E6B28#32))

/-- A score at (p, j): the scaled dot product where the mask word at (p, j) is not zero, the fill value elsewhere. -/
theorem scores_apply (x0 x1 : Vec Ideal S1x1x1024x64 .f32) (x3 : Vec Ideal S1x1x1024x1024 .i32) (p j : Fin 1024) :
    scores x0 x1 x3 (ix2 p j)
      = Attn.gscore (fun d : Fin 64 => x0 (ix4 (0 : Fin 1) (0 : Fin 1) p d)) (fun d : Fin 64 => x1 (ix4 (0 : Fin 1) (0 : Fin 1) j d))
          (IntOp.cmpi .ne (x3 (ix4 (0 : Fin 1) (0 : Fin 1) p j)) 0#32) := by
  unfold scores Attn.gscore
  rw [select_apply, mulf_apply, rows_product, broadcast_apply, broadcast_apply]
  show Scalar.select (IntOp.cmpi .ne (shapeCast S1024x1024 x3 shapeCasts_S1x1x1024x1024_S1024x1024 (ix2 p j)) 0#32) _ _ = _
  rw [shapeCast_11ab_ab_apply x3 _ 0 0 p j]
  rfl

/-- The weights at (p, q): the softmax weight of column q in score row p. -/
theorem weights_apply (x0 x1 : Vec Ideal S1x1x1024x64 .f32) (x3 : Vec Ideal S1x1x1024x1024 .i32) (p q : Fin 1024) :
    k0_pay2 (F := Ideal) x0 x1 x3 (ix2 p q) = Attn.prob (fun j : Fin 1024 => scores x0 x1 x3 (ix2 p j)) q :=
  SoftmaxRows.weights_apply (scores x0 x1 x3) reduces_S1024x1024_S1024 (.inl rfl) rfl rfl shapeCasts_S1024_S1024x1
    broadcasts_S1024x1_S1024x1024 _ rfl p q

/-- The output at (p, d): the weights of row p combined with column d of the value rows. -/
theorem output_apply (x0 x1 x2 : Vec Ideal S1x1x1024x64 .f32) (x3 : Vec Ideal S1x1x1024x1024 .i32) (p : Fin 1024) (d : Fin 64) :
    k0_pay4 (F := Ideal) x0 x1 x3 x2 (ix2 p d)
      = ∑ k : Fin 1024, k0_pay2 (F := Ideal) x0 x1 x3 (ix2 p k) * x2 (ix4 (0 : Fin 1) (0 : Fin 1) k d) :=
  (PlainMatmul.apply_zero (M := 1024) (K := 1024) (N := 64) (k0_pay2 (F := Ideal) x0 x1 x3)
      (shapeCast S1024x64 x2 shapeCasts_S1x1x1024x64_S1024x64) p d).trans
    (Finset.sum_congr rfl fun k _ => by rw [shapeCast_11ab_ab_apply x2 _ 0 0 k d])

variable {F : FTy → Type} [FloatOps F]

/-- The weights' buffer after the body is the stored weights: one store of the whole block. -/
theorem weights_buffer (x0 x1 x2 : Vec F S1x1x1024x64 .f32) (x3 : Vec F S1x1x1024x1024 .i32) :
    out0_5 x0 x1 x2 x3 = k0_pay3 x0 x1 x3 := by
  unfold out0_5
  rw [View.canon_unit_zero zeros4]
  simp only [View.ld_unit_zero (S := S1x1x1024x64) zeros4, View.ld_unit_zero (S := S1x1x1024x1024) zeros4]

/-- The output's buffer after the body is the stored output. -/
theorem output_buffer (x0 x1 x2 : Vec F S1x1x1024x64 .f32) (x3 : Vec F S1x1x1024x1024 .i32) :
    out0_4 x0 x1 x2 x3 = k0_pay1 (k0_pay4 x0 x1 x3 x2) := by
  unfold out0_4
  rw [View.canon_unit_zero zeros4]
  simp only [View.ld_unit_zero (S := S1x1x1024x64) zeros4, View.ld_unit_zero (S := S1x1x1024x1024) zeros4]

/-- The weights' buffer at (u, v, p, q). -/
theorem weights_buffer_apply (x0 x1 x2 : Vec Ideal S1x1x1024x64 .f32) (x3 : Vec Ideal S1x1x1024x1024 .i32)
    (u v : Fin 1) (p q : Fin 1024) :
    out0_5 x0 x1 x2 x3 (ix4 u v p q) = Attn.prob (fun j : Fin 1024 => scores x0 x1 x3 (ix2 p j)) q := by
  rw [weights_buffer]
  unfold k0_pay3
  exact (shapeCast_ab_11ab_apply (k0_pay2 (F := Ideal) x0 x1 x3) _ u v p q).trans (weights_apply x0 x1 x3 p q)

/-- The output's buffer at (u, v, p, d). -/
theorem output_buffer_apply (x0 x1 x2 : Vec Ideal S1x1x1024x64 .f32) (x3 : Vec Ideal S1x1x1024x1024 .i32)
    (u v : Fin 1) (p : Fin 1024) (d : Fin 64) :
    out0_4 x0 x1 x2 x3 (ix4 u v p d)
      = ∑ k : Fin 1024, Attn.prob (fun j : Fin 1024 => scores x0 x1 x3 (ix2 p j)) k * x2 (ix4 (0 : Fin 1) (0 : Fin 1) k d) := by
  rw [output_buffer]
  unfold k0_pay1
  refine (shapeCast_ab_11ab_apply (k0_pay4 (F := Ideal) x0 x1 x3 x2) _ u v p d).trans ?_
  rw [output_apply]
  exact Finset.sum_congr rfl fun k _ => by rw [weights_apply]

end Cert.KernelIdeal.GlobalBlock

end
-- ==== Proof.GlobalArrays.lean ====
/-
  The twelve-head region's two output arrays after its run.

  The grid is (batch, head), 8 × 12 points; at point (b, h) the query, key and value windows hold rows (b, h, ·, ·) of
  the three argument arrays, the mask window holds rows (b, 0, ·, ·) of the mask widened to 32-bit words, and the two
  output windows are written back to rows (b, h, ·, ·) of the output arrays. A mask word is non-zero exactly where
  the mask bit is set. So the block a point writes back is the block of the attention weights (and of the outputs)
  of batch b and head h, and the 96 blocks tile the two arrays.
-/
import proofs.«171366_j8272107012450_2_alg».proof.Proof.Gen.KernelIdeal.Frame
import proofs.«171366_j8272107012450_2_alg».proof.Proof.GlobalBlock
import Idealize.ShloMosaic.Lib.Pipeline.Value
import Idealize.ShloMosaic.Lib.Tactic

set_option maxRecDepth 16384

noncomputable section

namespace Cert.KernelIdeal.GlobalArrays

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What the region finds -/

/-- Argument 0 as the region finds it: no host operation before the region writes it. -/
theorem entry_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl
/-- Argument 1 as the region finds it: no host operation before the region writes it. -/
theorem entry_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl
/-- Argument 2 as the region finds it: no host operation before the region writes it. -/
theorem entry_arg2 (c : Dev nD) : V1 m ρ c main_arg2 = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans rfl

/-- The mask as the region finds it: each bit widened to a 32-bit word. -/
theorem entry_maskWords (c : Dev nD) :
    V1 m ρ c main_v28 = extui 32 (m ((c : Thread nD τ).loc main_arg6)) natLt_1_32 := by
  show StableHlo.after hostOps0 (W0 m ρ c) (Proc.devRef .tc main_v28) = _
  after_results

/-! ## The windows' index maps over the grid -/

/-- The output windows' block indices are (batch, head, 0, 0) with batch below 8 and head below 12. -/
theorem idx_range : ∀ t : Fin cfg0.N, win0_5.index t 0 < 8 ∧ win0_5.index t 1 < 12 ∧ win0_5.index t 2 = 0 ∧ win0_5.index t 3 = 0 :=
  (by decide +kernel : ∀ t : Fin grid0.N, _)
theorem idx_facts0 : ∀ t : Fin cfg0.N, win0_0.index t 0 = win0_5.index t 0 ∧ win0_0.index t 1 = win0_5.index t 1
    ∧ win0_0.index t 2 = 0 ∧ win0_0.index t 3 = 0 :=
  (by decide +kernel : ∀ t : Fin grid0.N, _)
theorem idx_facts1 : ∀ t : Fin cfg0.N, win0_1.index t 0 = win0_5.index t 0 ∧ win0_1.index t 1 = win0_5.index t 1
    ∧ win0_1.index t 2 = 0 ∧ win0_1.index t 3 = 0 :=
  (by decide +kernel : ∀ t : Fin grid0.N, _)
theorem idx_facts2 : ∀ t : Fin cfg0.N, win0_2.index t 0 = win0_5.index t 0 ∧ win0_2.index t 1 = win0_5.index t 1
    ∧ win0_2.index t 2 = 0 ∧ win0_2.index t 3 = 0 :=
  (by decide +kernel : ∀ t : Fin grid0.N, _)
theorem idx_facts4 : ∀ t : Fin cfg0.N, win0_4.index t 0 = win0_5.index t 0 ∧ win0_4.index t 1 = win0_5.index t 1
    ∧ win0_4.index t 2 = 0 ∧ win0_4.index t 3 = 0 :=
  (by decide +kernel : ∀ t : Fin grid0.N, _)
/-- The mask window follows the batch only. -/
theorem idx_facts3 : ∀ t : Fin cfg0.N, win0_3.index t 0 = win0_5.index t 0 ∧ win0_3.index t 1 = 0
    ∧ win0_3.index t 2 = 0 ∧ win0_3.index t 3 = 0 :=
  (by decide +kernel : ∀ t : Fin grid0.N, _)
/-- Every (batch, head) is some point's. -/
theorem idx_onto : ∀ (b : Fin 8) (h : Fin 12), ∃ t : Fin cfg0.N, win0_5.index t 0 = b.val ∧ win0_5.index t 1 = h.val :=
  (by decide +kernel : ∀ (b : Fin 8) (h : Fin 12), ∃ t : Fin grid0.N, _)

/-- The batch of point t. -/
def batchOf (t : Fin cfg0.N) : Fin 8 := ⟨win0_5.index t 0, (idx_range t).1⟩
/-- The head of point t. -/
def headOf (t : Fin cfg0.N) : Fin 12 := ⟨win0_5.index t 1, (idx_range t).2.1⟩

/-! ## The blocks as rows of the argument arrays -/

/-- The query block at point t is rows (batch, head) of the query array. -/
theorem query_block (c : Dev nD) (t : Fin cfg0.N) (y : S1x1x1024x64.Idx) (k : S8x16x1024x64.Idx)
    (h0 : (k 0).val = win0_5.index t 0) (h1 : (k 1).val = win0_5.index t 1) (h2 : (k 2).val = (y 2).val) (h3 : (k 3).val = (y 3).val) :
    (iblk0 (V1 m ρ) c 0 t : Vec Ideal S1x1x1024x64 .f32) y = (m ((c : Thread nD τ).loc main_arg0) : S8x16x1024x64.Idx → EReal) k := by
  obtain ⟨f0, f1, f2, f3⟩ := idx_facts0 t
  unfold iblk0
  rw [View.read_apply]
  show V1 m ρ c main_arg0 _ = _
  rw [entry_arg0]
  congr 1
  funext a
  apply Fin.ext
  have y0 : (y 0).val < 1 := (y 0).isLt
  have y1 : (y 1).val < 1 := (y 1).isLt
  match a with
  | ⟨0, _⟩ => show win0_0.index t 0 * 1 + 1 * (y 0).val = (k 0).val; omega
  | ⟨1, _⟩ => show win0_0.index t 1 * 1 + 1 * (y 1).val = (k 1).val; omega
  | ⟨2, _⟩ => show win0_0.index t 2 * 1024 + 1 * (y 2).val = (k 2).val; omega
  | ⟨3, _⟩ => show win0_0.index t 3 * 64 + 1 * (y 3).val = (k 3).val; omega

/-- The key block at point t is rows (batch, head) of the key array. -/
theorem key_block (c : Dev nD) (t : Fin cfg0.N) (y : S1x1x1024x64.Idx) (k : S8x16x1024x64.Idx)
    (h0 : (k 0).val = win0_5.index t 0) (h1 : (k 1).val = win0_5.index t 1) (h2 : (k 2).val = (y 2).val) (h3 : (k 3).val = (y 3).val) :
    (iblk0 (V1 m ρ) c 1 t : Vec Ideal S1x1x1024x64 .f32) y = (m ((c : Thread nD τ).loc main_arg1) : S8x16x1024x64.Idx → EReal) k := by
  obtain ⟨f0, f1, f2, f3⟩ := idx_facts1 t
  unfold iblk0
  rw [View.read_apply]
  show V1 m ρ c main_arg1 _ = _
  rw [entry_arg1]
  congr 1
  funext a
  apply Fin.ext
  have y0 : (y 0).val < 1 := (y 0).isLt
  have y1 : (y 1).val < 1 := (y 1).isLt
  match a with
  | ⟨0, _⟩ => show win0_1.index t 0 * 1 + 1 * (y 0).val = (k 0).val; omega
  | ⟨1, _⟩ => show win0_1.index t 1 * 1 + 1 * (y 1).val = (k 1).val; omega
  | ⟨2, _⟩ => show win0_1.index t 2 * 1024 + 1 * (y 2).val = (k 2).val; omega
  | ⟨3, _⟩ => show win0_1.index t 3 * 64 + 1 * (y 3).val = (k 3).val; omega

/-- The value block at point t is rows (batch, head) of the value array. -/
theorem value_block (c : Dev nD) (t : Fin cfg0.N) (y : S1x1x1024x64.Idx) (k : S8x16x1024x64.Idx)
    (h0 : (k 0).val = win0_5.index t 0) (h1 : (k 1).val = win0_5.index t 1) (h2 : (k 2).val = (y 2).val) (h3 : (k 3).val = (y 3).val) :
    (iblk0 (V1 m ρ) c 2 t : Vec Ideal S1x1x1024x64 .f32) y = (m ((c : Thread nD τ).loc main_arg2) : S8x16x1024x64.Idx → EReal) k := by
  obtain ⟨f0, f1, f2, f3⟩ := idx_facts2 t
  unfold iblk0
  rw [View.read_apply]
  show V1 m ρ c main_arg2 _ = _
  rw [entry_arg2]
  congr 1
  funext a
  apply Fin.ext
  have y0 : (y 0).val < 1 := (y 0).isLt
  have y1 : (y 1).val < 1 := (y 1).isLt
  match a with
  | ⟨0, _⟩ => show win0_2.index t 0 * 1 + 1 * (y 0).val = (k 0).val; omega
  | ⟨1, _⟩ => show win0_2.index t 1 * 1 + 1 * (y 1).val = (k 1).val; omega
  | ⟨2, _⟩ => show win0_2.index t 2 * 1024 + 1 * (y 2).val = (k 2).val; omega
  | ⟨3, _⟩ => show win0_2.index t 3 * 64 + 1 * (y 3).val = (k 3).val; omega

/-- The mask block at point t is rows (batch, 0) of the mask, each bit widened to a word. -/
theorem mask_block (c : Dev nD) (t : Fin cfg0.N) (p j : Fin 1024) :
    (iblk0 (V1 m ρ) c 3 t : Vec Ideal S1x1x1024x1024 .i32) (ix4 (0 : Fin 1) (0 : Fin 1) p j)
      = ((m ((c : Thread nD τ).loc main_arg6) : S8x1x1024x1024.Idx → BitVec 1) (ix4 (batchOf t) (0 : Fin 1) p j)).setWidth 32 := by
  obtain ⟨f0, f1, f2, f3⟩ := idx_facts3 t
  unfold iblk0
  rw [View.read_apply]
  show V1 m ρ c main_v28 _ = _
  rw [entry_maskWords, extui_apply]
  congr 2
  funext a
  apply Fin.ext
  match a with
  | ⟨0, _⟩ => show win0_3.index t 0 * 1 + 1 * 0 = win0_5.index t 0; omega
  | ⟨1, _⟩ => show win0_3.index t 1 * 1 + 1 * 0 = 0; omega
  | ⟨2, _⟩ => show win0_3.index t 2 * 1024 + 1 * p.val = p.val; omega
  | ⟨3, _⟩ => show win0_3.index t 3 * 1024 + 1 * j.val = j.val; omega

/-- The block's masked score at (p, j) is the masked score of (batch, head, p, j). -/
theorem block_score (c : Dev nD) (t : Fin cfg0.N) (p j : Fin 1024) :
    GlobalBlock.scores (iblk0 (V1 m ρ) c 0 t) (iblk0 (V1 m ρ) c 1 t) (iblk0 (V1 m ρ) c 3 t) (ix2 p j)
      = Attn.gS (m ((c : Thread nD τ).loc main_arg0)) (m ((c : Thread nD τ).loc main_arg1)) (m ((c : Thread nD τ).loc main_arg6))
          (batchOf t) (headOf t) p j := by
  rw [GlobalBlock.scores_apply]
  unfold Attn.gS
  rw [mask_block, Attn.bit_of_word]
  congr 1
  · funext d
    exact query_block m ρ c t (ix4 (0 : Fin 1) (0 : Fin 1) p d) (ix4 (batchOf t) (Attn.gloHead (headOf t)) p d) rfl rfl rfl rfl
  · funext d
    exact key_block m ρ c t (ix4 (0 : Fin 1) (0 : Fin 1) j d) (ix4 (batchOf t) (Attn.gloHead (headOf t)) j d) rfl rfl rfl rfl

/-! ## The weights' array -/

/-- The specification's weights of the argument arrays. -/
abbrev weights (c : Dev nD) : S8x12x1024x1024.Idx → EReal :=
  Attn.gP (m ((c : Thread nD τ).loc main_arg0)) (m ((c : Thread nD τ).loc main_arg1)) (m ((c : Thread nD τ).loc main_arg6))

/-- The specification's outputs of the argument arrays. -/
abbrev outputs (c : Dev nD) : S8x12x1024x64.Idx → EReal :=
  Attn.gO (m ((c : Thread nD τ).loc main_arg0)) (m ((c : Thread nD τ).loc main_arg1)) (m ((c : Thread nD τ).loc main_arg2))
    (m ((c : Thread nD τ).loc main_arg6))

/-- Where entry (u, v, p, q) of point t's weights block sits in the array: (batch, head, p, q). -/
theorem weights_emb (t : Fin cfg0.N) (u v : Fin 1) (p q : Fin 1024) :
    ((cfg0.win 5).blk t).view.emb (ix4 u v p q) = (ix4 (batchOf t) (headOf t) p q : S8x12x1024x1024.Idx) := by
  funext a
  apply Fin.ext
  have hu : u.val < 1 := u.isLt
  have hv : v.val < 1 := v.isLt
  obtain ⟨r0, r1, r2, r3⟩ := idx_range t
  match a with
  | ⟨0, _⟩ => show win0_5.index t 0 * 1 + 1 * u.val = win0_5.index t 0; omega
  | ⟨1, _⟩ => show win0_5.index t 1 * 1 + 1 * v.val = win0_5.index t 1; omega
  | ⟨2, _⟩ => show win0_5.index t 2 * 1024 + 1 * p.val = p.val; omega
  | ⟨3, _⟩ => show win0_5.index t 3 * 1024 + 1 * q.val = q.val; omega

/-- What point t writes back to the weights' array is block t of the specification's weights. -/
theorem weights_flushed (c : Dev nD) (t : Fin cfg0.N) :
    (dat0 (V1 m ρ) c).flushed 5 t = ((cfg0.win 5).blk t).view.read (Elt Ideal) (weights m c) := by
  show (cfg0.win 5).cut (grid0.coords t) ((dat0 (V1 m ρ) c).after 5 t) = _
  rw [after0_5]
  funext y
  obtain ⟨u, v, p, q, rfl⟩ : ∃ (u v : Fin 1) (p q : Fin 1024), y = ix4 u v p q := ⟨y 0, y 1, y 2, y 3, eq_ix4 y⟩
  refine (GlobalBlock.weights_buffer_apply (iblk0 (V1 m ρ) c 0 t) (iblk0 (V1 m ρ) c 1 t) (iblk0 (V1 m ρ) c 2 t) (iblk0 (V1 m ρ) c 3 t) u v p q).trans ?_
  rw [View.read_apply, weights_emb]
  show _ = Attn.prob (fun j => Attn.gS _ _ _ (batchOf t) (headOf t) p j) q
  exact congrArg (Attn.prob · q) (funext fun j => block_score m ρ c t p j)

theorem weights_mem (t : Fin cfg0.N) (i : S8x12x1024x1024.Idx) :
    i ∈ ((cfg0.win 5).blk t).view.set ↔ ∀ a : Fin 4, win0_5.index t a * S1x1x1024x1024.size a ≤ (i a).val
      ∧ (i a).val < win0_5.index t a * S1x1x1024x1024.size a + S1x1x1024x1024.size a := by
  show i ∈ ((View.whole main_v29_1).slice (win0_5.rect t)).set ↔ _
  rw [View.set_slice_whole, Rect.mem_set_unit]
  exact Iff.rfl

/-- Every entry of the weights' array is in some point's block. -/
theorem weights_cover (i : S8x12x1024x1024.Idx) :
    ∃ t : Fin cfg0.N, (cfg0.win 5).flush t = true ∧ i ∈ ((cfg0.win 5).blk t).view.set := by
  obtain ⟨t, e0, e1⟩ := idx_onto ⟨(i 0).val, (i 0).isLt⟩ ⟨(i 1).val, (i 1).isLt⟩
  have e0 : win0_5.index t 0 = (i 0).val := e0
  have e1 : win0_5.index t 1 = (i 1).val := e1
  obtain ⟨r0, r1, r2, r3⟩ := idx_range t
  refine ⟨t, flush0_5 t, (weights_mem t i).mpr fun a => ?_⟩
  have i2 : (i 2).val < 1024 := (i 2).isLt
  have i3 : (i 3).val < 1024 := (i 3).isLt
  match a with
  | ⟨0, _⟩ => show win0_5.index t 0 * 1 ≤ (i 0).val ∧ (i 0).val < win0_5.index t 0 * 1 + 1; rw [e0]; constructor <;> omega
  | ⟨1, _⟩ => show win0_5.index t 1 * 1 ≤ (i 1).val ∧ (i 1).val < win0_5.index t 1 * 1 + 1; rw [e1]; constructor <;> omega
  | ⟨2, _⟩ => show win0_5.index t 2 * 1024 ≤ (i 2).val ∧ (i 2).val < win0_5.index t 2 * 1024 + 1024; omega
  | ⟨3, _⟩ => show win0_5.index t 3 * 1024 ≤ (i 3).val ∧ (i 3).val < win0_5.index t 3 * 1024 + 1024; omega

/-- The weights' array after the run is the specification's weights. -/
theorem weights_array (c : Dev nD) : (dat0 (V1 m ρ) c).arrAt 5 cfg0.N = weights m c :=
  (dat0 (V1 m ρ) c).arrAt_eq_of_cover 5 (weights m c) (fun t _ => weights_flushed m ρ c t) weights_cover

/-! ## The outputs' array -/

theorem outputs_emb (t : Fin cfg0.N) (u v : Fin 1) (p : Fin 1024) (d : Fin 64) :
    ((cfg0.win 4).blk t).view.emb (ix4 u v p d) = (ix4 (batchOf t) (headOf t) p d : S8x12x1024x64.Idx) := by
  funext a
  apply Fin.ext
  have hu : u.val < 1 := u.isLt
  have hv : v.val < 1 := v.isLt
  obtain ⟨r0, r1, r2, r3⟩ := idx_range t
  obtain ⟨f0, f1, f2, f3⟩ := idx_facts4 t
  match a with
  | ⟨0, _⟩ => show win0_4.index t 0 * 1 + 1 * u.val = win0_5.index t 0; omega
  | ⟨1, _⟩ => show win0_4.index t 1 * 1 + 1 * v.val = win0_5.index t 1; omega
  | ⟨2, _⟩ => show win0_4.index t 2 * 1024 + 1 * p.val = p.val; omega
  | ⟨3, _⟩ => show win0_4.index t 3 * 64 + 1 * d.val = d.val; omega

/-- What point t writes back to the outputs' array is block t of the specification's outputs. -/
theorem outputs_flushed (c : Dev nD) (t : Fin cfg0.N) :
    (dat0 (V1 m ρ) c).flushed 4 t = ((cfg0.win 4).blk t).view.read (Elt Ideal) (outputs m c) := by
  show (cfg0.win 4).cut (grid0.coords t) ((dat0 (V1 m ρ) c).after 4 t) = _
  rw [after0_4]
  funext y
  obtain ⟨u, v, p, d, rfl⟩ : ∃ (u v : Fin 1) (p : Fin 1024) (d : Fin 64), y = ix4 u v p d := ⟨y 0, y 1, y 2, y 3, eq_ix4 y⟩
  refine (GlobalBlock.output_buffer_apply (iblk0 (V1 m ρ) c 0 t) (iblk0 (V1 m ρ) c 1 t) (iblk0 (V1 m ρ) c 2 t) (iblk0 (V1 m ρ) c 3 t) u v p d).trans ?_
  rw [View.read_apply, outputs_emb]
  show _ = ∑ k : Fin 1024, Attn.prob (fun j => Attn.gS _ _ _ (batchOf t) (headOf t) p j) k
      * (m ((c : Thread nD τ).loc main_arg2) : S8x16x1024x64.Idx → EReal) (ix4 (batchOf t) (Attn.gloHead (headOf t)) k d)
  refine Finset.sum_congr rfl fun k _ => ?_
  rw [value_block m ρ c t (ix4 (0 : Fin 1) (0 : Fin 1) k d) (ix4 (batchOf t) (Attn.gloHead (headOf t)) k d) rfl rfl rfl rfl]
  exact congrArg (· * _) (congrArg (Attn.prob · k) (funext fun j => block_score m ρ c t p j))

theorem outputs_mem (t : Fin cfg0.N) (i : S8x12x1024x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v29_0).slice (win0_4.rect t)).set ↔ _
  rw [View.set_slice_whole, Rect.mem_set_unit]
  exact Iff.rfl

/-- Every entry of the outputs' array is in some point's block. -/
theorem outputs_cover (i : S8x12x1024x64.Idx) :
    ∃ t : Fin cfg0.N, (cfg0.win 4).flush t = true ∧ i ∈ ((cfg0.win 4).blk t).view.set := by
  obtain ⟨t, e0, e1⟩ := idx_onto ⟨(i 0).val, (i 0).isLt⟩ ⟨(i 1).val, (i 1).isLt⟩
  have e0 : win0_5.index t 0 = (i 0).val := e0
  have e1 : win0_5.index t 1 = (i 1).val := e1
  obtain ⟨r0, r1, r2, r3⟩ := idx_range t
  obtain ⟨f0, f1, f2, f3⟩ := idx_facts4 t
  refine ⟨t, flush0_4 t, (outputs_mem t i).mpr fun a => ?_⟩
  have i2 : (i 2).val < 1024 := (i 2).isLt
  have i3 : (i 3).val < 64 := (i 3).isLt
  match a with
  | ⟨0, _⟩ => show win0_4.index t 0 * 1 ≤ (i 0).val ∧ (i 0).val < win0_4.index t 0 * 1 + 1; rw [f0, e0]; constructor <;> omega
  | ⟨1, _⟩ => show win0_4.index t 1 * 1 ≤ (i 1).val ∧ (i 1).val < win0_4.index t 1 * 1 + 1; rw [f1, e1]; constructor <;> omega
  | ⟨2, _⟩ => show win0_4.index t 2 * 1024 ≤ (i 2).val ∧ (i 2).val < win0_4.index t 2 * 1024 + 1024; omega
  | ⟨3, _⟩ => show win0_4.index t 3 * 64 ≤ (i 3).val ∧ (i 3).val < win0_4.index t 3 * 64 + 64; omega

/-- The outputs' array after the run is the specification's outputs. -/
theorem outputs_array (c : Dev nD) : (dat0 (V1 m ρ) c).arrAt 4 cfg0.N = outputs m c :=
  (dat0 (V1 m ρ) c).arrAt_eq_of_cover 4 (outputs m c) (fun t _ => outputs_flushed m ρ c t) outputs_cover

end Cert.KernelIdeal.GlobalArrays

end
-- ==== Proof.LocalBlock.lean ====
/-
  The four-head region's body, read at one entry of each of its two output blocks.

  Besides the query, key and value blocks [1, 1, 1024, 64] and the mask block of 32-bit words, the body loads two
  blocks [1, 1024, 64] of learnt rows and a gate block [1, 1024, 1024]. With the unit axes dropped: the learnt rows are
  added to the query rows and to the key rows; the scores are the product of the two sums' rows times 0.125, times the
  gate entry, replaced by the fill value where the mask word is zero; the weights are the softmax of each score row
  (the shifted exponentials and their row sums are formed first, the quotient after); the output is the product of the
  weights with the value rows.
-/
import proofs.«171366_j8272107012450_2_alg».proof.Proof.Gen.KernelIdeal.Frame
import proofs.«171366_j8272107012450_2_alg».proof.Proof.SoftmaxRows
import proofs.«171366_j8272107012450_2_alg».proof.Proof.LibLeadingUnits
import proofs.«171366_j8272107012450_2_alg».proof.Proof.LibTransposedMatmul
import proofs.«171366_j8272107012450_2_alg».proof.Proof.LibPlainMatmul

noncomputable section

namespace Cert.KernelIdeal.LocalBlock

open Idealize.ShloMosaic Idealize.ShloMosaic.ValueIdx Cert.KernelIdeal Cert.KernelIdeal.Gen Cert.LibLeadingUnits

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The product of the rows of one matrix with the rows of another, at (p, j). -/
theorem rows_product (a b : FVec Ideal S1024x64 .f32) (p j : Fin 1024) :
    matmul (F := Ideal) dot_S1024x64_S1024x64_S1024x1024_1_1_0_0_n_n (some .fp32) a b (constant S1024x1024 .f32 0x00000000#32) (ix2 p j)
      = ∑ d : Fin 64, a (ix2 p d) * b (ix2 j d) :=
  TransposedMatmul.apply_zero (M := 1024) (K := 64) (N := 1024) a b p j

/-- The masked, gated, scaled scores of the block. -/
def scores (x0 x1 : Vec Ideal S1x1x1024x64 .f32) (x3 x4 : Vec Ideal S1x1024x64 .f32) (x5 : Vec Ideal S1x1024x1024 .f32)
    (x6 : Vec Ideal S1x1x1024x1024 .i32) : FVec Ideal S1024x1024 .f32 :=
  select (cmpi .ne (shapeCast S1024x1024 x6 shapeCasts_S1x1x1024x1024_S1024x1024) (constantI S1024x1024 32 0#32))
    (mulf (mulf (matmul (F := Ideal) dot_S1024x64_S1024x64_S1024x1024_1_1_0_0_n_n (some .fp32)
          (addf (shapeCast S1024x64 x0 shapeCasts_S1x1x1024x64_S1024x64 : FVec Ideal S1024x64 .f32) (shapeCast S1024x64 x3 shapeCasts_S1x1024x64_S1024x64))
          (addf (shapeCast S1024x64 x1 shapeCasts_S1x1x1024x64_S1024x64 : FVec Ideal S1024x64 .f32) (shapeCast S1024x64 x4 shapeCasts_S1x1024x64_S1024x64))
          (constant S1024x1024 .f32 0x00000000#32))
        (broadcast S1024x1024 (Scalar.ofBits (F := Ideal) .f32 0x3E000000#32)))
      (shapeCast S1024x1024 x5 shapeCasts_S1x1024x1024_S1024x1024 : FVec Ideal S1024x1024 .f32))
    (broadcast S1024x1024 (Scalar.ofBits (F := Ideal) .f32 0xCE6E6B28#32))

/-- A score at (p, j). -/
theorem scores_apply (x0 x1 : Vec Ideal S1x1x1024x64 .f32) (x3 x4 : Vec Ideal S1x1024x64 .f32) (x5 : Vec Ideal S1x1024x1024 .f32)
    (x6 : Vec Ideal S1x1x1024x1024 .i32) (p j : Fin 1024) :
    scores x0 x1 x3 x4 x5 x6 (ix2 p j)
      = Attn.lscore (fun d : Fin 64 => x0 (ix4 (0 : Fin 1) (0 : Fin 1) p d)) (fun d : Fin 64 => x3 (ix3 (0 : Fin 1) p d))
          (fun d : Fin 64 => x1 (ix4 (0 : Fin 1) (0 : Fin 1) j d)) (fun d : Fin 64 => x4 (ix3 (0 : Fin 1) j d))
          (x5 (ix3 (0 : Fin 1) p j)) (IntOp.cmpi .ne (x6 (ix4 (0 : Fin 1) (0 : Fin 1) p j)) 0#32) := by
  unfold scores Attn.lscore
  rw [select_apply, mulf_apply, mulf_apply, rows_product, broadcast_apply, broadcast_apply,
    shapeCast_1ab_ab_apply x5 _ p j]
  show Scalar.select (IntOp.cmpi .ne (shapeCast S1024x1024 x6 shapeCasts_S1x1x1024x1024_S1024x1024 (ix2 p j)) 0#32) _ _ = _
  rw [shapeCast_11ab_ab_apply x6 _ 0 0 p j]
  have hs : ∀ d : Fin 64,
      addf (shapeCast S1024x64 x0 shapeCasts_S1x1x1024x64_S1024x64 : FVec Ideal S1024x64 .f32) (shapeCast S1024x64 x3 shapeCasts_S1x1024x64_S1024x64) (ix2 p d)
        * addf (shapeCast S1024x64 x1 shapeCasts_S1x1x1024x64_S1024x64 : FVec Ideal S1024x64 .f32) (shapeCast S1024x64 x4 shapeCasts_S1x1024x64_S1024x64) (ix2 j d)
      = (x0 (ix4 (0 : Fin 1) (0 : Fin 1) p d) + x3 (ix3 (0 : Fin 1) p d)) * (x1 (ix4 (0 : Fin 1) (0 : Fin 1) j d) + x4 (ix3 (0 : Fin 1) j d)) := fun d => by
    rw [addf_apply, addf_apply, shapeCast_11ab_ab_apply x0 _ 0 0 p d, shapeCast_11ab_ab_apply x1 _ 0 0 j d,
      shapeCast_1ab_ab_apply x3 _ p d, shapeCast_1ab_ab_apply x4 _ j d]
  rw [Finset.sum_congr rfl fun d _ => hs d]
  rfl

/-- The weights at (p, q): the quotient of the shifted exponentials by their row sums is the softmax weight. -/
theorem weights_apply (x0 x1 : Vec Ideal S1x1x1024x64 .f32) (x3 x4 : Vec Ideal S1x1024x64 .f32) (x5 : Vec Ideal S1x1024x1024 .f32)
    (x6 : Vec Ideal S1x1x1024x1024 .i32) (p q : Fin 1024) :
    k1_pay1 (F := Ideal) (k1_pay4 x0 x3 x1 x4 x5 x6) (k1_pay5 x0 x3 x1 x4 x5 x6) (ix2 p q)
      = Attn.prob (fun j : Fin 1024 => scores x0 x1 x3 x4 x5 x6 (ix2 p j)) q :=
  SoftmaxRows.weights_apply (scores x0 x1 x3 x4 x5 x6) reduces_S1024x1024_S1024 (.inl rfl) rfl rfl shapeCasts_S1024_S1024x1
    broadcasts_S1024x1_S1024x1024 (k1_pay4 (F := Ideal) x0 x3 x1 x4 x5 x6) rfl p q

variable {F : FTy → Type} [FloatOps F]

/-- The weights' buffer after the body is the stored weights: one store of the whole block. -/
theorem weights_buffer (x0 x1 x2 : Vec F S1x1x1024x64 .f32) (x3 x4 : Vec F S1x1024x64 .f32) (x5 : Vec F S1x1024x1024 .f32)
    (x6 : Vec F S1x1x1024x1024 .i32) :
    out1_8 x0 x1 x2 x3 x4 x5 x6 = k1_pay2 (k1_pay4 x0 x3 x1 x4 x5 x6) (k1_pay5 x0 x3 x1 x4 x5 x6) := by
  unfold out1_8
  rw [View.canon_unit_zero zeros4]
  simp only [View.ld_unit_zero (S := S1x1x1024x64) zeros4, View.ld_unit_zero (S := S1x1x1024x1024) zeros4,
    View.ld_unit_zero (S := S1x1024x64) zeros3, View.ld_unit_zero (S := S1x1024x1024) zeros3]

/-- The output's buffer after the body is the stored output. -/
theorem output_buffer (x0 x1 x2 : Vec F S1x1x1024x64 .f32) (x3 x4 : Vec F S1x1024x64 .f32) (x5 : Vec F S1x1024x1024 .f32)
    (x6 : Vec F S1x1x1024x1024 .i32) :
    out1_7 x0 x1 x2 x3 x4 x5 x6 = k1_pay3 (k1_pay4 x0 x3 x1 x4 x5 x6) (k1_pay5 x0 x3 x1 x4 x5 x6) x2 := by
  unfold out1_7
  rw [View.canon_unit_zero zeros4]
  simp only [View.ld_unit_zero (S := S1x1x1024x64) zeros4, View.ld_unit_zero (S := S1x1x1024x1024) zeros4,
    View.ld_unit_zero (S := S1x1024x64) zeros3, View.ld_unit_zero (S := S1x1024x1024) zeros3]

/-- The weights' buffer at (u, v, p, q). -/
theorem weights_buffer_apply (x0 x1 x2 : Vec Ideal S1x1x1024x64 .f32) (x3 x4 : Vec Ideal S1x1024x64 .f32)
    (x5 : Vec Ideal S1x1024x1024 .f32) (x6 : Vec Ideal S1x1x1024x1024 .i32) (u v : Fin 1) (p q : Fin 1024) :
    out1_8 x0 x1 x2 x3 x4 x5 x6 (ix4 u v p q) = Attn.prob (fun j : Fin 1024 => scores x0 x1 x3 x4 x5 x6 (ix2 p j)) q := by
  rw [weights_buffer]
  unfold k1_pay2
  exact (shapeCast_ab_11ab_apply (k1_pay1 (F := Ideal) (k1_pay4 x0 x3 x1 x4 x5 x6) (k1_pay5 x0 x3 x1 x4 x5 x6)) _ u v p q).trans
    (weights_apply x0 x1 x3 x4 x5 x6 p q)

/-- The output's buffer at (u, v, p, d). -/
theorem output_buffer_apply (x0 x1 x2 : Vec Ideal S1x1x1024x64 .f32) (x3 x4 : Vec Ideal S1x1024x64 .f32)
    (x5 : Vec Ideal S1x1024x1024 .f32) (x6 : Vec Ideal S1x1x1024x1024 .i32) (u v : Fin 1) (p : Fin 1024) (d : Fin 64) :
    out1_7 x0 x1 x2 x3 x4 x5 x6 (ix4 u v p d)
      = ∑ k : Fin 1024, Attn.prob (fun j : Fin 1024 => scores x0 x1 x3 x4 x5 x6 (ix2 p j)) k * x2 (ix4 (0 : Fin 1) (0 : Fin 1) k d) := by
  rw [output_buffer]
  unfold k1_pay3
  refine (shapeCast_ab_11ab_apply _ _ u v p d).trans ?_
  refine (PlainMatmul.apply_zero (M := 1024) (K := 1024) (N := 64) (k1_pay1 (F := Ideal) (k1_pay4 x0 x3 x1 x4 x5 x6) (k1_pay5 x0 x3 x1 x4 x5 x6))
    (shapeCast S1024x64 x2 shapeCasts_S1x1x1024x64_S1024x64) p d).trans ?_
  exact Finset.sum_congr rfl fun k _ => by rw [weights_apply, shapeCast_11ab_ab_apply x2 _ 0 0 k d]

end Cert.KernelIdeal.LocalBlock

end
-- ==== Proof.LocalArrays.lean ====
/-
  The four-head region's two output arrays after its run.

  The grid is (head, batch), 4 × 8 points; at point (h, b) the query, key and value windows hold rows (b, 12 + h, ·, ·)
  of the three argument arrays, the two table windows hold slab h of the two learnt tables read as [4, 1024, 64], the
  gate window holds slab h of the gate, the mask window rows (b, 0, ·, ·) of the mask widened to 32-bit words, and the two
  output windows are written back to rows (b, h, ·, ·) of the output arrays. The block a point writes back is the block of
  the attention weights (and of the outputs) of batch b and head 12 + h, and the 32 blocks tile the two arrays.
-/
import proofs.«171366_j8272107012450_2_alg».proof.Proof.Gen.KernelIdeal.Frame
import proofs.«171366_j8272107012450_2_alg».proof.Proof.LocalBlock
import proofs.«171366_j8272107012450_2_alg».proof.Proof.GlobalArrays
import Idealize.ShloMosaic.Lib.Pipeline.Value
import Idealize.ShloMosaic.Lib.Tactic

set_option maxRecDepth 16384

noncomputable section

namespace Cert.KernelIdeal.LocalArrays

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What the region finds -/

/-- Argument 0 as the region finds it: the first region only reads it, and no host operation writes it. -/
theorem entry_arg0 (c : Dev nD) : V3 m ρ c main_arg0 = m ((c : Thread nD τ).loc main_arg0) :=
  calc V3 m ρ c main_arg0
    _ = W2 m ρ c (Proc.devRef .tc main_arg0) := StableHlo.after_of_forall_not_mem (b := Proc.devRef .tc main_arg0) _ _ (List.forall_iff_forall_mem.mp (by
          simp only [hostOps1, List.Forall, StableHlo.unary_writes, Finset.mem_singleton]
          exact StableHlo.devRef_ne_of_ne (by decide)))
    _ = V1 m ρ c main_arg0 := (W2_arr m ρ c 0).trans (((dat0 (V1 m ρ) c).arrAt_in 0 rfl _).trans (A_eq0 (V1 m ρ) c 0))
    _ = m ((c : Thread nD τ).loc main_arg0) := GlobalArrays.entry_arg0 m ρ c
/-- Argument 1 as the region finds it: the first region only reads it, and no host operation writes it. -/
theorem entry_arg1 (c : Dev nD) : V3 m ρ c main_arg1 = m ((c : Thread nD τ).loc main_arg1) :=
  calc V3 m ρ c main_arg1
    _ = W2 m ρ c (Proc.devRef .tc main_arg1) := StableHlo.after_of_forall_not_mem (b := Proc.devRef .tc main_arg1) _ _ (List.forall_iff_forall_mem.mp (by
          simp only [hostOps1, List.Forall, StableHlo.unary_writes, Finset.mem_singleton]
          exact StableHlo.devRef_ne_of_ne (by decide)))
    _ = V1 m ρ c main_arg1 := (W2_arr m ρ c 1).trans (((dat0 (V1 m ρ) c).arrAt_in 1 rfl _).trans (A_eq0 (V1 m ρ) c 1))
    _ = m ((c : Thread nD τ).loc main_arg1) := GlobalArrays.entry_arg1 m ρ c
/-- Argument 2 as the region finds it: the first region only reads it, and no host operation writes it. -/
theorem entry_arg2 (c : Dev nD) : V3 m ρ c main_arg2 = m ((c : Thread nD τ).loc main_arg2) :=
  calc V3 m ρ c main_arg2
    _ = W2 m ρ c (Proc.devRef .tc main_arg2) := StableHlo.after_of_forall_not_mem (b := Proc.devRef .tc main_arg2) _ _ (List.forall_iff_forall_mem.mp (by
          simp only [hostOps1, List.Forall, StableHlo.unary_writes, Finset.mem_singleton]
          exact StableHlo.devRef_ne_of_ne (by decide)))
    _ = V1 m ρ c main_arg2 := (W2_arr m ρ c 2).trans (((dat0 (V1 m ρ) c).arrAt_in 2 rfl _).trans (A_eq0 (V1 m ρ) c 2))
    _ = m ((c : Thread nD τ).loc main_arg2) := GlobalArrays.entry_arg2 m ρ c

/-- The first learnt table as the region finds it: the [1024, 256] argument read as [4, 1024, 64]. -/
theorem entry_table3 (c : Dev nD) :
    V3 m ρ c main_v0 = shapeCast S4x1024x64 (m ((c : Thread nD τ).loc main_arg3)) shapeCasts_S1024x256_S4x1024x64 :=
  calc V3 m ρ c main_v0
    _ = W2 m ρ c (Proc.devRef .tc main_v0) := StableHlo.after_of_forall_not_mem (b := Proc.devRef .tc main_v0) _ _ (List.forall_iff_forall_mem.mp (by
          simp only [hostOps1, List.Forall, StableHlo.unary_writes, Finset.mem_singleton]
          exact StableHlo.devRef_ne_of_ne (by decide)))
    _ = W1 m ρ c (Proc.devRef .tc main_v0) := W2_of_ne m ρ c main_v0 (by decide)
    _ = shapeCast S4x1024x64 (m ((c : Thread nD τ).loc main_arg3)) shapeCasts_S1024x256_S4x1024x64 := by
          show StableHlo.after hostOps0 (W0 m ρ c) (Proc.devRef .tc main_v0) = _
          after_results
          rfl
/-- The second learnt table as the region finds it. -/
theorem entry_table4 (c : Dev nD) :
    V3 m ρ c main_v1 = shapeCast S4x1024x64 (m ((c : Thread nD τ).loc main_arg4)) shapeCasts_S1024x256_S4x1024x64 :=
  calc V3 m ρ c main_v1
    _ = W2 m ρ c (Proc.devRef .tc main_v1) := StableHlo.after_of_forall_not_mem (b := Proc.devRef .tc main_v1) _ _ (List.forall_iff_forall_mem.mp (by
          simp only [hostOps1, List.Forall, StableHlo.unary_writes, Finset.mem_singleton]
          exact StableHlo.devRef_ne_of_ne (by decide)))
    _ = W1 m ρ c (Proc.devRef .tc main_v1) := W2_of_ne m ρ c main_v1 (by decide)
    _ = shapeCast S4x1024x64 (m ((c : Thread nD τ).loc main_arg4)) shapeCasts_S1024x256_S4x1024x64 := by
          show StableHlo.after hostOps0 (W0 m ρ c) (Proc.devRef .tc main_v1) = _
          after_results
          rfl

/-- The gate the host operations before the first region computed from the relative-position table. -/
abbrev gateArr (c : Dev nD) : S4x1024x1024.Idx → EReal := W1 m ρ c (Proc.devRef .tc main_v27)

/-- The gate as the region finds it: as the host operations left it, untouched by the first region. -/
theorem entry_gate (c : Dev nD) : V3 m ρ c main_v27 = gateArr m ρ c :=
  calc V3 m ρ c main_v27
    _ = W2 m ρ c (Proc.devRef .tc main_v27) := StableHlo.after_of_forall_not_mem (b := Proc.devRef .tc main_v27) _ _ (List.forall_iff_forall_mem.mp (by
          simp only [hostOps1, List.Forall, StableHlo.unary_writes, Finset.mem_singleton]
          exact StableHlo.devRef_ne_of_ne (by decide)))
    _ = W1 m ρ c (Proc.devRef .tc main_v27) := W2_of_ne m ρ c main_v27 (by decide)

/-- The mask as the region finds it: each bit widened to a 32-bit word. -/
theorem entry_maskWords (c : Dev nD) :
    V3 m ρ c main_v30 = extui 32 (m ((c : Thread nD τ).loc main_arg6)) natLt_1_32 := by
  have e6 : W2 m ρ c (Proc.devRef .tc main_arg6) = m ((c : Thread nD τ).loc main_arg6) :=
    calc W2 m ρ c (Proc.devRef .tc main_arg6)
      _ = W1 m ρ c (Proc.devRef .tc main_arg6) := W2_of_ne m ρ c main_arg6 (by decide)
      _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
      _ = m ((c : Thread nD τ).loc main_arg6) := rfl
  show StableHlo.after hostOps1 (W2 m ρ c) (Proc.devRef .tc main_v30) = _
  after_results
  rw [e6]

/-! ## The windows' index maps over the grid -/

/-- The output windows' block indices are (batch, head, 0, 0) with batch below 8 and head below 4. -/
theorem idx_range : ∀ t : Fin cfg1.N, win1_8.index t 0 < 8 ∧ win1_8.index t 1 < 4 ∧ win1_8.index t 2 = 0 ∧ win1_8.index t 3 = 0 :=
  (by decide +kernel : ∀ t : Fin grid1.N, _)
theorem idx_facts0 : ∀ t : Fin cfg1.N, win1_0.index t 0 = win1_8.index t 0 ∧ win1_0.index t 1 = 12 + win1_8.index t 1
    ∧ win1_0.index t 2 = 0 ∧ win1_0.index t 3 = 0 :=
  (by decide +kernel : ∀ t : Fin grid1.N, _)
theorem idx_facts1 : ∀ t : Fin cfg1.N, win1_1.index t 0 = win1_8.index t 0 ∧ win1_1.index t 1 = 12 + win1_8.index t 1
    ∧ win1_1.index t 2 = 0 ∧ win1_1.index t 3 = 0 :=
  (by decide +kernel : ∀ t : Fin grid1.N, _)
theorem idx_facts2 : ∀ t : Fin cfg1.N, win1_2.index t 0 = win1_8.index t 0 ∧ win1_2.index t 1 = 12 + win1_8.index t 1
    ∧ win1_2.index t 2 = 0 ∧ win1_2.index t 3 = 0 :=
  (by decide +kernel : ∀ t : Fin grid1.N, _)
theorem idx_facts3 : ∀ t : Fin cfg1.N, win1_3.index t 0 = win1_8.index t 1 ∧ win1_3.index t 1 = 0 ∧ win1_3.index t 2 = 0 :=
  (by decide +kernel : ∀ t : Fin grid1.N, _)
theorem idx_facts4 : ∀ t : Fin cfg1.N, win1_4.index t 0 = win1_8.index t 1 ∧ win1_4.index t 1 = 0 ∧ win1_4.index t 2 = 0 :=
  (by decide +kernel : ∀ t : Fin grid1.N, _)
theorem idx_facts5 : ∀ t : Fin cfg1.N, win1_5.index t 0 = win1_8.index t 1 ∧ win1_5.index t 1 = 0 ∧ win1_5.index t 2 = 0 :=
  (by decide +kernel : ∀ t : Fin grid1.N, _)
/-- The mask window follows the batch only. -/
theorem idx_facts6 : ∀ t : Fin cfg1.N, win1_6.index t 0 = win1_8.index t 0 ∧ win1_6.index t 1 = 0
    ∧ win1_6.index t 2 = 0 ∧ win1_6.index t 3 = 0 :=
  (by decide +kernel : ∀ t : Fin grid1.N, _)
theorem idx_facts7 : ∀ t : Fin cfg1.N, win1_7.index t 0 = win1_8.index t 0 ∧ win1_7.index t 1 = win1_8.index t 1
    ∧ win1_7.index t 2 = 0 ∧ win1_7.index t 3 = 0 :=
  (by decide +kernel : ∀ t : Fin grid1.N, _)
/-- Every (batch, head) is some point's. -/
theorem idx_onto : ∀ (b : Fin 8) (h : Fin 4), ∃ t : Fin cfg1.N, win1_8.index t 0 = b.val ∧ win1_8.index t 1 = h.val :=
  (by decide +kernel : ∀ (b : Fin 8) (h : Fin 4), ∃ t : Fin grid1.N, _)

/-- The batch of point t. -/
def batchOf (t : Fin cfg1.N) : Fin 8 := ⟨win1_8.index t 0, (idx_range t).1⟩
/-- The head (of the last four) of point t. -/
def headOf (t : Fin cfg1.N) : Fin 4 := ⟨win1_8.index t 1, (idx_range t).2.1⟩

/-! ## The blocks as rows of the argument arrays -/

/-- The query block at point t is rows (batch, 12 + head) of the query array. -/
theorem query_block (c : Dev nD) (t : Fin cfg1.N) (y : S1x1x1024x64.Idx) (k : S8x16x1024x64.Idx)
    (h0 : (k 0).val = win1_8.index t 0) (h1 : (k 1).val = 12 + win1_8.index t 1) (h2 : (k 2).val = (y 2).val) (h3 : (k 3).val = (y 3).val) :
    (iblk1 (V3 m ρ) c 0 t : Vec Ideal S1x1x1024x64 .f32) y = (m ((c : Thread nD τ).loc main_arg0) : S8x16x1024x64.Idx → EReal) k := by
  obtain ⟨f0, f1, f2, f3⟩ := idx_facts0 t
  unfold iblk1
  rw [View.read_apply]
  show V3 m ρ c main_arg0 _ = _
  rw [entry_arg0]
  congr 1
  funext a
  apply Fin.ext
  have y0 : (y 0).val < 1 := (y 0).isLt
  have y1 : (y 1).val < 1 := (y 1).isLt
  match a with
  | ⟨0, _⟩ => show win1_0.index t 0 * 1 + 1 * (y 0).val = (k 0).val; omega
  | ⟨1, _⟩ => show win1_0.index t 1 * 1 + 1 * (y 1).val = (k 1).val; omega
  | ⟨2, _⟩ => show win1_0.index t 2 * 1024 + 1 * (y 2).val = (k 2).val; omega
  | ⟨3, _⟩ => show win1_0.index t 3 * 64 + 1 * (y 3).val = (k 3).val; omega

/-- The key block at point t is rows (batch, 12 + head) of the key array. -/
theorem key_block (c : Dev nD) (t : Fin cfg1.N) (y : S1x1x1024x64.Idx) (k : S8x16x1024x64.Idx)
    (h0 : (k 0).val = win1_8.index t 0) (h1 : (k 1).val = 12 + win1_8.index t 1) (h2 : (k 2).val = (y 2).val) (h3 : (k 3).val = (y 3).val) :
    (iblk1 (V3 m ρ) c 1 t : Vec Ideal S1x1x1024x64 .f32) y = (m ((c : Thread nD τ).loc main_arg1) : S8x16x1024x64.Idx → EReal) k := by
  obtain ⟨f0, f1, f2, f3⟩ := idx_facts1 t
  unfold iblk1
  rw [View.read_apply]
  show V3 m ρ c main_arg1 _ = _
  rw [entry_arg1]
  congr 1
  funext a
  apply Fin.ext
  have y0 : (y 0).val < 1 := (y 0).isLt
  have y1 : (y 1).val < 1 := (y 1).isLt
  match a with
  | ⟨0, _⟩ => show win1_1.index t 0 * 1 + 1 * (y 0).val = (k 0).val; omega
  | ⟨1, _⟩ => show win1_1.index t 1 * 1 + 1 * (y 1).val = (k 1).val; omega
  | ⟨2, _⟩ => show win1_1.index t 2 * 1024 + 1 * (y 2).val = (k 2).val; omega
  | ⟨3, _⟩ => show win1_1.index t 3 * 64 + 1 * (y 3).val = (k 3).val; omega

/-- The value block at point t is rows (batch, 12 + head) of the value array. -/
theorem value_block (c : Dev nD) (t : Fin cfg1.N) (y : S1x1x1024x64.Idx) (k : S8x16x1024x64.Idx)
    (h0 : (k 0).val = win1_8.index t 0) (h1 : (k 1).val = 12 + win1_8.index t 1) (h2 : (k 2).val = (y 2).val) (h3 : (k 3).val = (y 3).val) :
    (iblk1 (V3 m ρ) c 2 t : Vec Ideal S1x1x1024x64 .f32) y = (m ((c : Thread nD τ).loc main_arg2) : S8x16x1024x64.Idx → EReal) k := by
  obtain ⟨f0, f1, f2, f3⟩ := idx_facts2 t
  unfold iblk1
  rw [View.read_apply]
  show V3 m ρ c main_arg2 _ = _
  rw [entry_arg2]
  congr 1
  funext a
  apply Fin.ext
  have y0 : (y 0).val < 1 := (y 0).isLt
  have y1 : (y 1).val < 1 := (y 1).isLt
  match a with
  | ⟨0, _⟩ => show win1_2.index t 0 * 1 + 1 * (y 0).val = (k 0).val; omega
  | ⟨1, _⟩ => show win1_2.index t 1 * 1 + 1 * (y 1).val = (k 1).val; omega
  | ⟨2, _⟩ => show win1_2.index t 2 * 1024 + 1 * (y 2).val = (k 2).val; omega
  | ⟨3, _⟩ => show win1_2.index t 3 * 64 + 1 * (y 3).val = (k 3).val; omega

/-- The first table's block at point t is slab head of the table: entry (p, d) sits at the same row-major position of the [1024, 256] argument. -/
theorem tableQ_block (c : Dev nD) (t : Fin cfg1.N) (p : Fin 1024) (d : Fin 64) :
    (iblk1 (V3 m ρ) c 3 t : Vec Ideal S1x1024x64 .f32) (ix3 (0 : Fin 1) p d)
      = (m ((c : Thread nD τ).loc main_arg3) : S1024x256.Idx → EReal) (Attn.tableIdx (headOf t) p d) := by
  obtain ⟨f0, f1, f2⟩ := idx_facts3 t
  unfold iblk1
  rw [View.read_apply]
  show V3 m ρ c main_v0 _ = _
  rw [entry_table3]
  refine shapeCast_apply _ _ _ _ ?_
  show (S1024x256.rowMajor (Attn.tableIdx (headOf t) p d)).val = (S4x1024x64.rowMajor _).val
  rw [Shape.rowMajor_val_two, Shape.rowMajor_val_three]
  show ((win1_8.index t 1 * 1024 + p.val) * 64 + d.val) / 256 * 256 + ((win1_8.index t 1 * 1024 + p.val) * 64 + d.val) % 256
    = ((win1_3.index t 0 * 1 + 1 * 0) * 1024 + (win1_3.index t 1 * 1024 + 1 * p.val)) * 64 + (win1_3.index t 2 * 64 + 1 * d.val)
  omega

/-- The second table's block at point t, likewise. -/
theorem tableK_block (c : Dev nD) (t : Fin cfg1.N) (p : Fin 1024) (d : Fin 64) :
    (iblk1 (V3 m ρ) c 4 t : Vec Ideal S1x1024x64 .f32) (ix3 (0 : Fin 1) p d)
      = (m ((c : Thread nD τ).loc main_arg4) : S1024x256.Idx → EReal) (Attn.tableIdx (headOf t) p d) := by
  obtain ⟨f0, f1, f2⟩ := idx_facts4 t
  unfold iblk1
  rw [View.read_apply]
  show V3 m ρ c main_v1 _ = _
  rw [entry_table4]
  refine shapeCast_apply _ _ _ _ ?_
  show (S1024x256.rowMajor (Attn.tableIdx (headOf t) p d)).val = (S4x1024x64.rowMajor _).val
  rw [Shape.rowMajor_val_two, Shape.rowMajor_val_three]
  show ((win1_8.index t 1 * 1024 + p.val) * 64 + d.val) / 256 * 256 + ((win1_8.index t 1 * 1024 + p.val) * 64 + d.val) % 256
    = ((win1_4.index t 0 * 1 + 1 * 0) * 1024 + (win1_4.index t 1 * 1024 + 1 * p.val)) * 64 + (win1_4.index t 2 * 64 + 1 * d.val)
  omega

/-- The gate block at point t is slab head of the gate. -/
theorem gate_block (c : Dev nD) (t : Fin cfg1.N) (p j : Fin 1024) :
    (iblk1 (V3 m ρ) c 5 t : Vec Ideal S1x1024x1024 .f32) (ix3 (0 : Fin 1) p j) = gateArr m ρ c (ix3 (headOf t) p j) := by
  obtain ⟨f0, f1, f2⟩ := idx_facts5 t
  unfold iblk1
  rw [View.read_apply]
  show V3 m ρ c main_v27 _ = _
  rw [entry_gate]
  congr 1
  funext a
  apply Fin.ext
  match a with
  | ⟨0, _⟩ => show win1_5.index t 0 * 1 + 1 * 0 = win1_8.index t 1; omega
  | ⟨1, _⟩ => show win1_5.index t 1 * 1024 + 1 * p.val = p.val; omega
  | ⟨2, _⟩ => show win1_5.index t 2 * 1024 + 1 * j.val = j.val; omega

/-- The mask block at point t is rows (batch, 0) of the mask, each bit widened to a word. -/
theorem mask_block (c : Dev nD) (t : Fin cfg1.N) (p j : Fin 1024) :
    (iblk1 (V3 m ρ) c 6 t : Vec Ideal S1x1x1024x1024 .i32) (ix4 (0 : Fin 1) (0 : Fin 1) p j)
      = ((m ((c : Thread nD τ).loc main_arg6) : S8x1x1024x1024.Idx → BitVec 1) (ix4 (batchOf t) (0 : Fin 1) p j)).setWidth 32 := by
  obtain ⟨f0, f1, f2, f3⟩ := idx_facts6 t
  unfold iblk1
  rw [View.read_apply]
  show V3 m ρ c main_v30 _ = _
  rw [entry_maskWords, extui_apply]
  congr 2
  funext a
  apply Fin.ext
  match a with
  | ⟨0, _⟩ => show win1_6.index t 0 * 1 + 1 * 0 = win1_8.index t 0; omega
  | ⟨1, _⟩ => show win1_6.index t 1 * 1 + 1 * 0 = 0; omega
  | ⟨2, _⟩ => show win1_6.index t 2 * 1024 + 1 * p.val = p.val; omega
  | ⟨3, _⟩ => show win1_6.index t 3 * 1024 + 1 * j.val = j.val; omega

/-- The block's masked score at (p, j) is the masked score of (batch, 12 + head, p, j). -/
theorem block_score (c : Dev nD) (t : Fin cfg1.N) (p j : Fin 1024) :
    LocalBlock.scores (iblk1 (V3 m ρ) c 0 t) (iblk1 (V3 m ρ) c 1 t) (iblk1 (V3 m ρ) c 3 t) (iblk1 (V3 m ρ) c 4 t)
        (iblk1 (V3 m ρ) c 5 t) (iblk1 (V3 m ρ) c 6 t) (ix2 p j)
      = Attn.lS (m ((c : Thread nD τ).loc main_arg0)) (m ((c : Thread nD τ).loc main_arg1)) (m ((c : Thread nD τ).loc main_arg3))
          (m ((c : Thread nD τ).loc main_arg4)) (gateArr m ρ c) (m ((c : Thread nD τ).loc main_arg6)) (batchOf t) (headOf t) p j := by
  rw [LocalBlock.scores_apply]
  unfold Attn.lS
  rw [mask_block, Attn.bit_of_word, gate_block]
  congr 1
  · funext d
    exact query_block m ρ c t (ix4 (0 : Fin 1) (0 : Fin 1) p d) (ix4 (batchOf t) (Attn.locHead (headOf t)) p d) rfl rfl rfl rfl
  · funext d
    exact tableQ_block m ρ c t p d
  · funext d
    exact key_block m ρ c t (ix4 (0 : Fin 1) (0 : Fin 1) j d) (ix4 (batchOf t) (Attn.locHead (headOf t)) j d) rfl rfl rfl rfl
  · funext d
    exact tableK_block m ρ c t j d

/-! ## The weights' array -/

/-- The specification's weights of the argument arrays and the gate. -/
abbrev weights (c : Dev nD) : S8x4x1024x1024.Idx → EReal :=
  Attn.lP (m ((c : Thread nD τ).loc main_arg0)) (m ((c : Thread nD τ).loc main_arg1)) (m ((c : Thread nD τ).loc main_arg3))
    (m ((c : Thread nD τ).loc main_arg4)) (gateArr m ρ c) (m ((c : Thread nD τ).loc main_arg6))

/-- The specification's outputs of the argument arrays and the gate. -/
abbrev outputs (c : Dev nD) : S8x4x1024x64.Idx → EReal :=
  Attn.lO (m ((c : Thread nD τ).loc main_arg0)) (m ((c : Thread nD τ).loc main_arg1)) (m ((c : Thread nD τ).loc main_arg2))
    (m ((c : Thread nD τ).loc main_arg3)) (m ((c : Thread nD τ).loc main_arg4)) (gateArr m ρ c) (m ((c : Thread nD τ).loc main_arg6))

theorem weights_emb (t : Fin cfg1.N) (u v : Fin 1) (p q : Fin 1024) :
    ((cfg1.win 8).blk t).view.emb (ix4 u v p q) = (ix4 (batchOf t) (headOf t) p q : S8x4x1024x1024.Idx) := by
  funext a
  apply Fin.ext
  have hu : u.val < 1 := u.isLt
  have hv : v.val < 1 := v.isLt
  obtain ⟨r0, r1, r2, r3⟩ := idx_range t
  match a with
  | ⟨0, _⟩ => show win1_8.index t 0 * 1 + 1 * u.val = win1_8.index t 0; omega
  | ⟨1, _⟩ => show win1_8.index t 1 * 1 + 1 * v.val = win1_8.index t 1; omega
  | ⟨2, _⟩ => show win1_8.index t 2 * 1024 + 1 * p.val = p.val; omega
  | ⟨3, _⟩ => show win1_8.index t 3 * 1024 + 1 * q.val = q.val; omega

set_option maxHeartbeats 2000000 in
/-- What point t writes back to the weights' array is block t of the specification's weights. -/
theorem weights_flushed (c : Dev nD) (t : Fin cfg1.N) :
    (dat1 (V3 m ρ) c).flushed 8 t = ((cfg1.win 8).blk t).view.read (Elt Ideal) (weights m ρ c) := by
  show (cfg1.win 8).cut (grid1.coords t) ((dat1 (V3 m ρ) c).after 8 t) = _
  rw [after1_8]
  funext y
  obtain ⟨u, v, p, q, rfl⟩ : ∃ (u v : Fin 1) (p q : Fin 1024), y = ix4 u v p q := ⟨y 0, y 1, y 2, y 3, eq_ix4 y⟩
  refine (LocalBlock.weights_buffer_apply (iblk1 (V3 m ρ) c 0 t) (iblk1 (V3 m ρ) c 1 t) (iblk1 (V3 m ρ) c 2 t) (iblk1 (V3 m ρ) c 3 t)
    (iblk1 (V3 m ρ) c 4 t) (iblk1 (V3 m ρ) c 5 t) (iblk1 (V3 m ρ) c 6 t) u v p q).trans ?_
  rw [View.read_apply, weights_emb]
  show _ = Attn.prob (fun j => Attn.lS _ _ _ _ _ _ (batchOf t) (headOf t) p j) q
  exact congrArg (Attn.prob · q) (funext fun j => block_score m ρ c t p j)

theorem weights_mem (t : Fin cfg1.N) (i : S8x4x1024x1024.Idx) :
    i ∈ ((cfg1.win 8).blk t).view.set ↔ ∀ a : Fin 4, win1_8.index t a * S1x1x1024x1024.size a ≤ (i a).val
      ∧ (i a).val < win1_8.index t a * S1x1x1024x1024.size a + S1x1x1024x1024.size a := by
  show i ∈ ((View.whole main_v31_1).slice (win1_8.rect t)).set ↔ _
  rw [View.set_slice_whole, Rect.mem_set_unit]
  exact Iff.rfl

/-- Every entry of the weights' array is in some point's block. -/
theorem weights_cover (i : S8x4x1024x1024.Idx) :
    ∃ t : Fin cfg1.N, (cfg1.win 8).flush t = true ∧ i ∈ ((cfg1.win 8).blk t).view.set := by
  obtain ⟨t, e0, e1⟩ := idx_onto ⟨(i 0).val, (i 0).isLt⟩ ⟨(i 1).val, (i 1).isLt⟩
  have e0 : win1_8.index t 0 = (i 0).val := e0
  have e1 : win1_8.index t 1 = (i 1).val := e1
  obtain ⟨r0, r1, r2, r3⟩ := idx_range t
  refine ⟨t, flush1_8 t, (weights_mem t i).mpr fun a => ?_⟩
  have i2 : (i 2).val < 1024 := (i 2).isLt
  have i3 : (i 3).val < 1024 := (i 3).isLt
  match a with
  | ⟨0, _⟩ => show win1_8.index t 0 * 1 ≤ (i 0).val ∧ (i 0).val < win1_8.index t 0 * 1 + 1; rw [e0]; constructor <;> omega
  | ⟨1, _⟩ => show win1_8.index t 1 * 1 ≤ (i 1).val ∧ (i 1).val < win1_8.index t 1 * 1 + 1; rw [e1]; constructor <;> omega
  | ⟨2, _⟩ => show win1_8.index t 2 * 1024 ≤ (i 2).val ∧ (i 2).val < win1_8.index t 2 * 1024 + 1024; omega
  | ⟨3, _⟩ => show win1_8.index t 3 * 1024 ≤ (i 3).val ∧ (i 3).val < win1_8.index t 3 * 1024 + 1024; omega

/-- The weights' array after the run is the specification's weights. -/
theorem weights_array (c : Dev nD) : (dat1 (V3 m ρ) c).arrAt 8 cfg1.N = weights m ρ c :=
  (dat1 (V3 m ρ) c).arrAt_eq_of_cover 8 (weights m ρ c) (fun t _ => weights_flushed m ρ c t) weights_cover

/-! ## The outputs' array -/

theorem outputs_emb (t : Fin cfg1.N) (u v : Fin 1) (p : Fin 1024) (d : Fin 64) :
    ((cfg1.win 7).blk t).view.emb (ix4 u v p d) = (ix4 (batchOf t) (headOf t) p d : S8x4x1024x64.Idx) := by
  funext a
  apply Fin.ext
  have hu : u.val < 1 := u.isLt
  have hv : v.val < 1 := v.isLt
  obtain ⟨r0, r1, r2, r3⟩ := idx_range t
  obtain ⟨f0, f1, f2, f3⟩ := idx_facts7 t
  match a with
  | ⟨0, _⟩ => show win1_7.index t 0 * 1 + 1 * u.val = win1_8.index t 0; omega
  | ⟨1, _⟩ => show win1_7.index t 1 * 1 + 1 * v.val = win1_8.index t 1; omega
  | ⟨2, _⟩ => show win1_7.index t 2 * 1024 + 1 * p.val = p.val; omega
  | ⟨3, _⟩ => show win1_7.index t 3 * 64 + 1 * d.val = d.val; omega

set_option maxHeartbeats 2000000 in
/-- What point t writes back to the outputs' array is block t of the specification's outputs. -/
theorem outputs_flushed (c : Dev nD) (t : Fin cfg1.N) :
    (dat1 (V3 m ρ) c).flushed 7 t = ((cfg1.win 7).blk t).view.read (Elt Ideal) (outputs m ρ c) := by
  show (cfg1.win 7).cut (grid1.coords t) ((dat1 (V3 m ρ) c).after 7 t) = _
  rw [after1_7]
  funext y
  obtain ⟨u, v, p, d, rfl⟩ : ∃ (u v : Fin 1) (p : Fin 1024) (d : Fin 64), y = ix4 u v p d := ⟨y 0, y 1, y 2, y 3, eq_ix4 y⟩
  refine (LocalBlock.output_buffer_apply (iblk1 (V3 m ρ) c 0 t) (iblk1 (V3 m ρ) c 1 t) (iblk1 (V3 m ρ) c 2 t) (iblk1 (V3 m ρ) c 3 t)
    (iblk1 (V3 m ρ) c 4 t) (iblk1 (V3 m ρ) c 5 t) (iblk1 (V3 m ρ) c 6 t) u v p d).trans ?_
  rw [View.read_apply, outputs_emb]
  show _ = ∑ k : Fin 1024, Attn.prob (fun j => Attn.lS _ _ _ _ _ _ (batchOf t) (headOf t) p j) k
      * (m ((c : Thread nD τ).loc main_arg2) : S8x16x1024x64.Idx → EReal) (ix4 (batchOf t) (Attn.locHead (headOf t)) k d)
  refine Finset.sum_congr rfl fun k _ => ?_
  rw [value_block m ρ c t (ix4 (0 : Fin 1) (0 : Fin 1) k d) (ix4 (batchOf t) (Attn.locHead (headOf t)) k d) rfl rfl rfl rfl]
  exact congrArg (· * _) (congrArg (Attn.prob · k) (funext fun j => block_score m ρ c t p j))

theorem outputs_mem (t : Fin cfg1.N) (i : S8x4x1024x64.Idx) :
    i ∈ ((cfg1.win 7).blk t).view.set ↔ ∀ a : Fin 4, win1_7.index t a * S1x1x1024x64.size a ≤ (i a).val
      ∧ (i a).val < win1_7.index t a * S1x1x1024x64.size a + S1x1x1024x64.size a := by
  show i ∈ ((View.whole main_v31_0).slice (win1_7.rect t)).set ↔ _
  rw [View.set_slice_whole, Rect.mem_set_unit]
  exact Iff.rfl

/-- Every entry of the outputs' array is in some point's block. -/
theorem outputs_cover (i : S8x4x1024x64.Idx) :
    ∃ t : Fin cfg1.N, (cfg1.win 7).flush t = true ∧ i ∈ ((cfg1.win 7).blk t).view.set := by
  obtain ⟨t, e0, e1⟩ := idx_onto ⟨(i 0).val, (i 0).isLt⟩ ⟨(i 1).val, (i 1).isLt⟩
  have e0 : win1_8.index t 0 = (i 0).val := e0
  have e1 : win1_8.index t 1 = (i 1).val := e1
  obtain ⟨r0, r1, r2, r3⟩ := idx_range t
  obtain ⟨f0, f1, f2, f3⟩ := idx_facts7 t
  refine ⟨t, flush1_7 t, (outputs_mem t i).mpr fun a => ?_⟩
  have i2 : (i 2).val < 1024 := (i 2).isLt
  have i3 : (i 3).val < 64 := (i 3).isLt
  match a with
  | ⟨0, _⟩ => show win1_7.index t 0 * 1 ≤ (i 0).val ∧ (i 0).val < win1_7.index t 0 * 1 + 1; rw [f0, e0]; constructor <;> omega
  | ⟨1, _⟩ => show win1_7.index t 1 * 1 ≤ (i 1).val ∧ (i 1).val < win1_7.index t 1 * 1 + 1; rw [f1, e1]; constructor <;> omega
  | ⟨2, _⟩ => show win1_7.index t 2 * 1024 ≤ (i 2).val ∧ (i 2).val < win1_7.index t 2 * 1024 + 1024; omega
  | ⟨3, _⟩ => show win1_7.index t 3 * 64 ≤ (i 3).val ∧ (i 3).val < win1_7.index t 3 * 64 + 64; omega

/-- The outputs' array after the run is the specification's outputs. -/
theorem outputs_array (c : Dev nD) : (dat1 (V3 m ρ) c).arrAt 7 cfg1.N = outputs m ρ c :=
  (dat1 (V3 m ρ) c).arrAt_eq_of_cover 7 (outputs m ρ c) (fun t _ => outputs_flushed m ρ c t) outputs_cover

end Cert.KernelIdeal.LocalArrays

end
-- ==== Proof.GateAgrees.lean ====
/-
  The gate is one function of the relative-position table on both sides.

  Before its first region the kernel program computes the gate on the host: the distance table (column - row + 1023,
  wrapped into range), a gather of the table's rows at those distances, a division by 0.1, the logistic function spelt
  1 / (1 + exp (-x)), and a transposition to [4, 1024, 1024]. The reference computes it by the same operations in the
  same order. So the array the kernel program holds is the reference's term of the table.
-/
import proofs.«171366_j8272107012450_2_alg».proof.Proof.Gen.KernelIdeal.Frame
import proofs.«171366_j8272107012450_2_alg».proof.Proof.RefRead

set_option maxRecDepth 16384

noncomputable section

namespace Cert.Proof.Gate

open Idealize.ShloMosaic Idealize.ShloMosaic.TcCoe Idealize.SL.Sem Idealize.ShloMosaic.StableHlo

set_option maxHeartbeats 4000000 in
/-- The gate array the kernel program's host operations leave is the reference's gate of the same table. -/
theorem gate_agrees (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W1 m ρ c (Proc.devRef .tc Cert.KernelIdeal.main_v27)
      = Cert.ReferenceIdeal.Read.val_main_v58 (F := Ideal)
          (m ((c.tc : Thread Cert.KernelIdeal.nD Cert.KernelIdeal.τ).loc Cert.KernelIdeal.main_arg5)) := by
  show StableHlo.after Cert.KernelIdeal.Gen.hostOps0 (Cert.KernelIdeal.Gen.W0 m ρ c) (Proc.devRef .tc Cert.KernelIdeal.main_v27) = _
  after_results_simp
  rfl

end Cert.Proof.Gate

end
-- ==== Proof.lean ====
/-
  Sixteen-head masked attention, twelve plain heads and four gated heads with learnt rows: the kernel program against
  its reference on the extended reals.

  The kernel program runs two grids — one point per (batch, head) of the first twelve heads, one per (head, batch) of the
  last four — between host operations that reshape the two learnt tables, build the gate from the relative-position
  table, widen the mask to 32-bit words, and join the two groups' outputs along the head axis. Each point computes, for
  its batch and head, the scores  (q · k) / 8  (for the four heads: of the rows with the learnt rows added, times the
  gate), the fill value where the mask is not set, the softmax of each row, and the weights' combination of the value
  rows. The reference computes the same arrays whole, with the scale spelt 1 / sqrt 64 = 1/8. Both sides are brought
  to one index-by-index specification (AttnSpec); the only laws used are that a sum does not depend on the order of its
  terms and that sqrt 64 = 8, so the finiteness of the inputs is never needed.
-/
import proofs.«171366_j8272107012450_2_alg».proof.Defs
import proofs.«171366_j8272107012450_2_alg».proof.Proof.Gen.Kernel
import proofs.«171366_j8272107012450_2_alg».proof.Proof.Gen.Kernel.Skeleton
import proofs.«171366_j8272107012450_2_alg».proof.Proof.Gen.Kernel.Launch
import proofs.«171366_j8272107012450_2_alg».proof.Proof.Gen.Kernel.Points
import proofs.«171366_j8272107012450_2_alg».proof.Proof.Gen.Kernel.Frame
import proofs.«171366_j8272107012450_2_alg».proof.Proof.Gen.KernelIdeal
import proofs.«171366_j8272107012450_2_alg».proof.Proof.Gen.KernelIdeal.Skeleton
import proofs.«171366_j8272107012450_2_alg».proof.Proof.Gen.KernelIdeal.Launch
import proofs.«171366_j8272107012450_2_alg».proof.Proof.Gen.KernelIdeal.Points
import proofs.«171366_j8272107012450_2_alg».proof.Proof.Gen.KernelIdeal.Frame
import proofs.«171366_j8272107012450_2_alg».proof.Proof.Gen.ReferenceIdeal
import proofs.«171366_j8272107012450_2_alg».proof.Proof.Gen.Pre_finite_inputs
import proofs.«171366_j8272107012450_2_alg».proof.Proof.RefRun
import proofs.«171366_j8272107012450_2_alg».proof.Proof.RefRead
import proofs.«171366_j8272107012450_2_alg».proof.Proof.RefValue
import proofs.«171366_j8272107012450_2_alg».proof.Proof.KernelRun
import proofs.«171366_j8272107012450_2_alg».proof.Proof.GlobalArrays
import proofs.«171366_j8272107012450_2_alg».proof.Proof.LocalArrays
import proofs.«171366_j8272107012450_2_alg».proof.Proof.GateAgrees
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Run from memories that agree on the arguments, the two programs end with the same three arrays: the outputs of all
    sixteen heads, the weights of the first twelve, the weights of the last four — each the specification's function
    of the arguments (the gate being the same function of the relative-position table on both sides). -/
theorem algebraic : Cert.algebraic_KernelIdeal_ReferenceIdeal := by
  intro m ρ m' ρ' _ hagree
  refine ⟨fun c => Cert.KernelIdeal.Run.joined (Cert.KernelIdeal.GlobalArrays.outputs m c) (Cert.KernelIdeal.LocalArrays.outputs m ρ c),
    fun c => Cert.KernelIdeal.GlobalArrays.weights m c, fun c => Cert.KernelIdeal.LocalArrays.weights m ρ c, ?_, ?_⟩
  · refine (θ_run Cert.KernelIdeal.defs _ _).mono (fun r h c => ?_) (Cert.KernelIdeal.Run.run_all (F := Ideal) m ρ)
    have hb := h c
    refine ⟨(hb _ (Cert.KernelIdeal.Gen.mem_uc Cert.KernelIdeal.main_v32 (by decide))).trans ((Cert.KernelIdeal.Run.W5_out m ρ c).trans ?_),
      (hb _ (Cert.KernelIdeal.Gen.mem_uc Cert.KernelIdeal.main_v29_1 (by decide))).trans
        ((Cert.KernelIdeal.Run.W5_weights0 m ρ c).trans (Cert.KernelIdeal.GlobalArrays.weights_array m ρ c)),
      (hb _ (Cert.KernelIdeal.Gen.mem_uc Cert.KernelIdeal.main_v31_1 (by decide))).trans
        ((Cert.KernelIdeal.Run.W5_weights1 m ρ c).trans (Cert.KernelIdeal.LocalArrays.weights_array m ρ c)),
      (hb _ (Cert.KernelIdeal.Gen.mem_uc Cert.KernelIdeal.main_arg0 (by decide))).trans (Cert.KernelIdeal.Gen.W5_main_arg0 m ρ c),
      (hb _ (Cert.KernelIdeal.Gen.mem_uc Cert.KernelIdeal.main_arg1 (by decide))).trans (Cert.KernelIdeal.Gen.W5_main_arg1 m ρ c),
      (hb _ (Cert.KernelIdeal.Gen.mem_uc Cert.KernelIdeal.main_arg2 (by decide))).trans (Cert.KernelIdeal.Gen.W5_main_arg2 m ρ c),
      (hb _ (Cert.KernelIdeal.Gen.mem_uc Cert.KernelIdeal.main_arg3 (by decide))).trans (Cert.KernelIdeal.Gen.W5_main_arg3 m ρ c),
      (hb _ (Cert.KernelIdeal.Gen.mem_uc Cert.KernelIdeal.main_arg4 (by decide))).trans (Cert.KernelIdeal.Gen.W5_main_arg4 m ρ c),
      (hb _ (Cert.KernelIdeal.Gen.mem_uc Cert.KernelIdeal.main_arg5 (by decide))).trans (Cert.KernelIdeal.Gen.W5_main_arg5 m ρ c),
      (hb _ (Cert.KernelIdeal.Gen.mem_uc Cert.KernelIdeal.main_arg6 (by decide))).trans (Cert.KernelIdeal.Gen.W5_main_arg6 m ρ c)⟩
    rw [Cert.KernelIdeal.GlobalArrays.outputs_array, Cert.KernelIdeal.LocalArrays.outputs_array]
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6⟩ := hagree c
    refine ⟨h0.trans ?_, h1.trans ?_, h2.trans ?_, hargs⟩
    · rw [Cert.ReferenceIdeal.RefValue.outputs16, a0, a1, a2, a3, a4, a5, a6, ← Cert.Proof.Gate.gate_agrees m ρ c]
    · rw [Cert.ReferenceIdeal.RefValue.weights12, a0, a1, a6]
    · rw [Cert.ReferenceIdeal.RefValue.weights4, a0, a1, a3, a4, a5, a6, ← Cert.Proof.Gate.gate_agrees m ρ c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
